-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x16x128 : Shape := ⟨4, ![4, 4096, 16, 128]⟩
abbrev S4x16x128 : Shape := ⟨3, ![4, 16, 128]⟩
abbrev S_ : Shape := ⟨0, ![]⟩

class Facts : Prop where
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x16x128 : S_.BroadcastsInDim S4x16x128 (![] : Fin 0 → Fin S4x16x128.rank)
  reducesTo_S4x16x128_S_d0_1_2 : S4x16x128.ReducesTo [0, 1, 2] S_

variable [Facts]

def fn {F : FTy → Type} [FloatOps F] (main_arg0 : FVec F S4x4096x16x128 .f32) (main_arg1 : FVec F S4x16x128 .f32) : IVec S_ 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_c : IVec S_ 1 := constantI S_ 1 1#1
  let main_v3 : IVec S_ 1 := (fun x v => Host.reduce IntOp.andi x v reducesTo_S4x4096x16x128_S_d0_1_2_3 h_S_) main_v2 main_c
  let main_v4 : FVec F S4x16x128 .f32 := Host.absf main_arg1
  let main_cst_0 : FVec F S_ .f32 := constant S_ .f32 0x7F800000#32
  let main_v5 : FVec F S4x16x128 .f32 := broadcastInDim S4x16x128 ![] bcast_S_S4x16x128 main_cst_0
  let main_v6 : IVec S4x16x128 1 := cmpf .olt main_v4 main_v5
  let main_c_1 : IVec S_ 1 := constantI S_ 1 1#1
  let main_v7 : IVec S_ 1 := (fun x v => Host.reduce IntOp.andi x v reducesTo_S4x16x128_S_d0_1_2 h_S_) main_v6 main_c_1
  let main_v8 : IVec S_ 1 := andi main_v3 main_v7
  main_v8
-- ==== Kernel.lean ====
abbrev S4x4096x16x128 : Shape := ⟨4, ![4, 4096, 16, 128]⟩
abbrev S4x16x128 : Shape := ⟨3, ![4, 16, 128]⟩
abbrev S1x1024x16x128 : Shape := ⟨4, ![1, 1024, 16, 128]⟩
abbrev S1x8x16x128 : Shape := ⟨4, ![1, 8, 16, 128]⟩
abbrev S1x3x16x128 : Shape := ⟨4, ![1, 3, 16, 128]⟩
abbrev S3x16x128 : Shape := ⟨3, ![3, 16, 128]⟩
abbrev S1x256x16x128 : Shape := ⟨4, ![1, 256, 16, 128]⟩
abbrev S256x16x128 : Shape := ⟨3, ![256, 16, 128]⟩
abbrev S253x16x128 : Shape := ⟨3, ![253, 16, 128]⟩
abbrev S1x16x128 : Shape := ⟨3, ![1, 16, 128]⟩
abbrev S16x128 : Shape := ⟨2, ![16, 128]⟩
abbrev S1x253x16x128 : Shape := ⟨4, ![1, 253, 16, 128]⟩
abbrev S6x16x128 : Shape := ⟨3, ![6, 16, 128]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x16x128, .f32⟩
  | .hbm, ⟨1, _⟩ => ⟨S4x16x128, .f32⟩
  | .hbm, ⟨2, _⟩ => ⟨S4x4096x16x128, .f32⟩
  | .local _ .vmem, ⟨0, _⟩ => ⟨S1x1024x16x128, .f32⟩
  | .local _ .vmem, ⟨1, _⟩ => ⟨S1x1024x16x128, .f32⟩
  | .local _ .vmem, ⟨2, _⟩ => ⟨S1x8x16x128, .f32⟩
  | .local _ .vmem, ⟨3, _⟩ => ⟨S1x8x16x128, .f32⟩
  | .local _ .vmem, ⟨4, _⟩ => ⟨S4x16x128, .f32⟩
  | .local _ .vmem, ⟨5, _⟩ => ⟨S1x1024x16x128, .f32⟩
  | .local _ .vmem, ⟨6, _⟩ => ⟨S1x1024x16x128, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c1_i32 : BitVec 32 := 1#32
  let c3_i32 : BitVec 32 := 3#32
  let v70 : BitVec 32 := Scalar.addi c1_i32 c3_i32
  let c1_i32_16 : BitVec 32 := 1#32
  ⟨c1_i32, v70, c1_i32_16⟩
def k0_mult1 (k0_t1 : Fin k0_t1_loop.trips) : BitVec 32 :=
  let c1_i32 : BitVec 32 := 1#32
  let c1_i32_16 : BitVec 32 := 1#32
  let arg6 : BitVec 32 := Scf.iv c1_i32 c1_i32_16 k0_t1
  let c256_i32 : BitVec 32 := 256#32
  let v71 : BitVec 32 := Scalar.muli arg6 c256_i32
  v71
def k0_off1 (k0_t1 : Fin k0_t1_loop.trips) : Fin 4 → Nat :=
  let c0_19 : Index := 0#32
  let c1_i32 : BitVec 32 := 1#32
  let c1_i32_16 : BitVec 32 := 1#32
  let arg6 : BitVec 32 := Scf.iv c1_i32 c1_i32_16 k0_t1
  let c256_i32 : BitVec 32 := 256#32
  let v71 : BitVec 32 := Scalar.muli arg6 c256_i32
  let v72 : BitVec 32 := v71
  let c3_i32_18 : BitVec 32 := 3#32
  let v73 : BitVec 32 := Scalar.subi v72 c3_i32_18
  let v74 : Index := Scalar.indexCast v73
  let c0_20 : Index := 0#32
  let c0_21 : Index := 0#32
  ![0, v74.toNat, 0, 0]
def k0_off2 (k0_t1 : Fin k0_t1_loop.trips) : Fin 4 → Nat :=
  let c0_22 : Index := 0#32
  let c1_i32 : BitVec 32 := 1#32
  let c1_i32_16 : BitVec 32 := 1#32
  let arg6 : BitVec 32 := Scf.iv c1_i32 c1_i32_16 k0_t1
  let c256_i32 : BitVec 32 := 256#32
  let v71 : BitVec 32 := Scalar.muli arg6 c256_i32
  let v72 : BitVec 32 := v71
  let v77 : Index := Scalar.indexCast v72
  let c0_23 : Index := 0#32
  let c0_24 : Index := 0#32
  ![0, v77.toNat, 0, 0]
def k0_off3 (k0_t1 : Fin k0_t1_loop.trips) : Fin 4 → Nat :=
  let c0_26 : Index := 0#32
  let c1_i32 : BitVec 32 := 1#32
  let c1_i32_16 : BitVec 32 := 1#32
  let arg6 : BitVec 32 := Scf.iv c1_i32 c1_i32_16 k0_t1
  let c256_i32 : BitVec 32 := 256#32
  let v71 : BitVec 32 := Scalar.muli arg6 c256_i32
  let v72 : BitVec 32 := v71
  let c3_i32_25 : BitVec 32 := 3#32
  let v107 : BitVec 32 := Scalar.addi v72 c3_i32_25
  let v108 : Index := Scalar.indexCast v107
  let c0_27 : Index := 0#32
  let c0_28 : Index := 0#32
  ![0, v108.toNat, 0, 0]
def k0_off4 (k0_t1 : Fin k0_t1_loop.trips) : Fin 4 → Nat :=
  let c0_29 : Index := 0#32
  let c1_i32 : BitVec 32 := 1#32
  let c1_i32_16 : BitVec 32 := 1#32
  let arg6 : BitVec 32 := Scf.iv c1_i32 c1_i32_16 k0_t1
  let c256_i32 : BitVec 32 := 256#32
  let v71 : BitVec 32 := Scalar.muli arg6 c256_i32
  let v72 : BitVec 32 := v71
  let v141 : Index := Scalar.indexCast v72
  let c0_30 : Index := 0#32
  let c0_31 : Index := 0#32
  ![0, v141.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4x16x128_S4x16x128_0_0_0 : ∀ a, (![0, 0, 0] : Fin 3 → Nat) a + S4x16x128.size a ≤ S4x16x128.size a
  h_S4x16x128 : 0 < S4x16x128.numel
  inb_S1x8x16x128_S1x3x16x128_0_5_0_0 : ∀ a, (![0, 5, 0, 0] : Fin 4 → Nat) a + S1x3x16x128.size a ≤ S1x8x16x128.size a
  h_S1x3x16x128 : 0 < S1x3x16x128.numel
  shapeCasts_S1x3x16x128_S3x16x128 : S1x3x16x128.ShapeCasts S3x16x128
  inb_S1x1024x16x128_S1x256x16x128_0_0_0_0 : ∀ a, (![0, 0, 0, 0] : Fin 4 → Nat) a + S1x256x16x128.size a ≤ S1x1024x16x128.size a
  h_S1x256x16x128 : 0 < S1x256x16x128.numel
  shapeCasts_S1x256x16x128_S256x16x128 : S1x256x16x128.ShapeCasts S256x16x128
  slices_S256x16x128_o3_0_0_S253x16x128 : S256x16x128.Slices ![3, 0, 0] S253x16x128
  slices_S4x16x128_o0_0_0_S1x16x128 : S4x16x128.Slices ![0, 0, 0] S1x16x128
  shapeCasts_S1x16x128_S16x128 : S1x16x128.ShapeCasts S16x128
  shapeCasts_S16x128_S1x16x128 : S16x128.ShapeCasts S1x16x128
  broadcasts_S1x16x128_S253x16x128 : S1x16x128.Broadcasts S253x16x128
  slices_S256x16x128_o2_0_0_S253x16x128 : S256x16x128.Slices ![2, 0, 0] S253x16x128
  slices_S4x16x128_o1_0_0_S1x16x128 : S4x16x128.Slices ![1, 0, 0] S1x16x128
  slices_S256x16x128_o1_0_0_S253x16x128 : S256x16x128.Slices ![1, 0, 0] S253x16x128
  slices_S4x16x128_o2_0_0_S1x16x128 : S4x16x128.Slices ![2, 0, 0] S1x16x128
  slices_S256x16x128_o0_0_0_S253x16x128 : S256x16x128.Slices ![0, 0, 0] S253x16x128
  slices_S4x16x128_o3_0_0_S1x16x128 : S4x16x128.Slices ![3, 0, 0] S1x16x128
  inb_S1x1024x16x128_S1x253x16x128_0_3_0_0 : ∀ a, (![0, 3, 0, 0] : Fin 4 → Nat) a + S1x253x16x128.size a ≤ S1x1024x16x128.size a
  h_S1x253x16x128 : 0 < S1x253x16x128.numel
  shapeCasts_S1x253x16x128_S253x16x128 : S1x253x16x128.ShapeCasts S253x16x128
  shapeCasts_S253x16x128_S1x253x16x128 : S253x16x128.ShapeCasts S1x253x16x128
  slices_S256x16x128_o0_0_0_S3x16x128 : S256x16x128.Slices ![0, 0, 0] S3x16x128
  concatenates_S3x16x128_S3x16x128_S6x16x128_d0 : Shape.Concatenates [S3x16x128, S3x16x128] S6x16x128 0
  slices_S6x16x128_o3_0_0_S3x16x128 : S6x16x128.Slices ![3, 0, 0] S3x16x128
  broadcasts_S1x16x128_S3x16x128 : S1x16x128.Broadcasts S3x16x128
  slices_S6x16x128_o2_0_0_S3x16x128 : S6x16x128.Slices ![2, 0, 0] S3x16x128
  slices_S6x16x128_o1_0_0_S3x16x128 : S6x16x128.Slices ![1, 0, 0] S3x16x128
  slices_S6x16x128_o0_0_0_S3x16x128 : S6x16x128.Slices ![0, 0, 0] S3x16x128
  inb_S1x1024x16x128_S1x3x16x128_0_0_0_0 : ∀ a, (![0, 0, 0, 0] : Fin 4 → Nat) a + S1x3x16x128.size a ≤ S1x1024x16x128.size a
  shapeCasts_S3x16x128_S1x3x16x128 : S3x16x128.ShapeCasts S1x3x16x128
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x3x16x128.size a ≤ S1x1024x16x128.size a
  k0_off2_inb : ∀ k0_t1 : Fin k0_t1_loop.trips, ∀ a, (k0_off2 k0_t1) a + S1x256x16x128.size a ≤ S1x1024x16x128.size a
  k0_off3_inb : ∀ k0_t1 : Fin k0_t1_loop.trips, ∀ a, (k0_off3 k0_t1) a + S1x253x16x128.size a ≤ S1x1024x16x128.size a
  k0_off4_inb : ∀ k0_t1 : Fin k0_t1_loop.trips, ∀ a, (k0_off4 k0_t1) a + S1x3x16x128.size a ≤ S1x1024x16x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16x128.size a ≤ S4x4096x16x128.size a
  hwx0_0 : ∀ i : grid0.Coords, EltTy.bits .f32 = 32 ∨ (Rect.block (s := S4x4096x16x128) S1x1024x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x16x128.size a ≤ S4x4096x16x128.size a
  hwx0_1 : ∀ i : grid0.Coords, EltTy.bits .f32 = 32 ∨ (Rect.block (s := S4x4096x16x128) S1x8x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16x128.size a ≤ S4x16x128.size a
  hwx0_2 : ∀ i : grid0.Coords, EltTy.bits .f32 = 32 ∨ (Rect.block (s := S4x16x128) S4x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16x128.size a ≤ S4x4096x16x128.size a
  hwx0_3 : ∀ i : grid0.Coords, EltTy.bits .f32 = 32 ∨ (Rect.block (s := S4x4096x16x128) S1x1024x16x128.size (cc0_transform_3 i) (hinb0_3 i)).WholeWords (EltTy.packing .f32)

variable [Facts₀]

abbrev win0_0 : Pipeline.Window sig grid0 :=
  Pipeline.Window.ofSpec (Memref.whole main_arg0) S1x1024x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x16x128 : Shape := ⟨4, ![4, 4096, 16, 128]⟩
abbrev S4x16x128 : Shape := ⟨3, ![4, 16, 128]⟩
abbrev S1x16x128 : Shape := ⟨3, ![1, 16, 128]⟩
abbrev S16x128 : Shape := ⟨2, ![16, 128]⟩
abbrev S1x1x16x128 : Shape := ⟨4, ![1, 1, 16, 128]⟩
abbrev S_ : Shape := ⟨0, ![]⟩
abbrev S4x4097x16x128 : Shape := ⟨4, ![4, 4097, 16, 128]⟩
abbrev S4x4098x16x128 : Shape := ⟨4, ![4, 4098, 16, 128]⟩
abbrev S4x4099x16x128 : Shape := ⟨4, ![4, 4099, 16, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x16x128, .f32⟩
  | .hbm, ⟨2, _⟩ => ⟨S1x16x128, .f32⟩
  | .hbm, ⟨3, _⟩ => ⟨S16x128, .f32⟩
  | .hbm, ⟨4, _⟩ => ⟨S1x1x16x128, .f32⟩
  | .hbm, ⟨5, _⟩ => ⟨S4x4096x16x128, .f32⟩
  | .hbm, ⟨6, _⟩ => ⟨S4x4096x16x128, .f32⟩
  | .hbm, ⟨7, _⟩ => ⟨S_, .i32⟩
  | .hbm, ⟨8, _⟩ => ⟨S_, .f32⟩
  | .hbm, ⟨9, _⟩ => ⟨S4x4097x16x128, .f32⟩
  | .hbm, ⟨10, _⟩ => ⟨S4x4096x16x128, .f32⟩
  | .hbm, ⟨11, _⟩ => ⟨S1x16x128, .f32⟩
  | .hbm, ⟨12, _⟩ => ⟨S16x128, .f32⟩
  | .hbm, ⟨13, _⟩ => ⟨S1x1x16x128, .f32⟩
  | .hbm, ⟨14, _⟩ => ⟨S4x4096x16x128, .f32⟩
  | .hbm, ⟨15, _⟩ => ⟨S4x4096x16x128, .f32⟩
  | .hbm, ⟨16, _⟩ => ⟨S4x4096x16x128, .f32⟩
  | .hbm, ⟨17, _⟩ => ⟨S_, .i32⟩
  | .hbm, ⟨18, _⟩ => ⟨S_, .f32⟩
  | .hbm, ⟨19, _⟩ => ⟨S4x4098x16x128, .f32⟩
  | .hbm, ⟨20, _⟩ => ⟨S4x4096x16x128, .f32⟩
  | .hbm, ⟨21, _⟩ => ⟨S1x16x128, .f32⟩
  | .hbm, ⟨22, _⟩ => ⟨S16x128, .f32⟩
  | .hbm, ⟨23, _⟩ => ⟨S1x1x16x128, .f32⟩
  | .hbm, ⟨24, _⟩ => ⟨S4x4096x16x128, .f32⟩
  | .hbm, ⟨25, _⟩ => ⟨S4x4096x16x128, .f32⟩
  | .hbm, ⟨26, _⟩ => ⟨S4x4096x16x128, .f32⟩
  | .hbm, ⟨27, _⟩ => ⟨S_, .i32⟩
  | .hbm, ⟨28, _⟩ => ⟨S_, .f32⟩
  | .hbm, ⟨29, _⟩ => ⟨S4x4099x16x128, .f32⟩
  | .hbm, ⟨30, _⟩ => ⟨S4x4096x16x128, .f32⟩
  | .hbm, ⟨31, _⟩ => ⟨S1x16x128, .f32⟩
  | .hbm, ⟨32, _⟩ => ⟨S16x128, .f32⟩
  | .hbm, ⟨33, _⟩ => ⟨S1x1x16x128, .f32⟩
  | .hbm, ⟨34, _⟩ => ⟨S4x4096x16x128, .f32⟩
  | .hbm, ⟨35, _⟩ => ⟨S4x4096x16x128, .f32⟩
  | .hbm, ⟨36, _⟩ => ⟨S4x4096x16x128, .f32⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_call2_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  slices_S4x16x128_S1x16x128_0_0_0 : S4x16x128.Slices ![0, 0, 0] S1x16x128
  shapeCasts_S1x16x128_S16x128 : S1x16x128.ShapeCasts S16x128
  bcast_S16x128_S1x1x16x128_2_3 : S16x128.BroadcastsInDim S1x1x16x128 (![2, 3] : Fin 2 → Fin S1x1x16x128.rank)
  bcast_S1x1x16x128_S4x4096x16x128_0_1_2_3 : S1x1x16x128.BroadcastsInDim S4x4096x16x128 (![0, 1, 2, 3] : Fin 4 → Fin S4x4096x16x128.rank)
  pads_S4x4096x16x128_S4x4097x16x128_000_100_000_000 : S4x4096x16x128.Pads (![0, 1, 0, 0] : Fin 4 → Nat) ![0, 0, 0, 0] ![0, 0, 0, 0] S4x4097x16x128
  h_S_ : 0 < S_.numel
  slices_S4x4097x16x128_S4x4096x16x128_0_0_0_0 : S4x4097x16x128.Slices ![0, 0, 0, 0] S4x4096x16x128
  slices_S4x16x128_S1x16x128_1_0_0 : S4x16x128.Slices ![1, 0, 0] S1x16x128
  pads_S4x4096x16x128_S4x4098x16x128_000_200_000_000 : S4x4096x16x128.Pads (![0, 2, 0, 0] : Fin 4 → Nat) ![0, 0, 0, 0] ![0, 0, 0, 0] S4x4098x16x128
  slices_S4x4098x16x128_S4x4096x16x128_0_0_0_0 : S4x4098x16x128.Slices ![0, 0, 0, 0] S4x4096x16x128
  slices_S4x16x128_S1x16x128_2_0_0 : S4x16x128.Slices ![2, 0, 0] S1x16x128
  pads_S4x4096x16x128_S4x4099x16x128_000_300_000_000 : S4x4096x16x128.Pads (![0, 3, 0, 0] : Fin 4 → Nat) ![0, 0, 0, 0] ![0, 0, 0, 0] S4x4099x16x128
  slices_S4x4099x16x128_S4x4096x16x128_0_0_0_0 : S4x4099x16x128.Slices ![0, 0, 0, 0] S4x4096x16x128
  slices_S4x16x128_S1x16x128_3_0_0 : S4x16x128.Slices ![3, 0, 0] S1x16x128

variable [Facts₀]

class Facts : Prop extends Facts₀ where

variable [Facts]
-- ==== Proof.Spec.lean ====
/-
  A causal depthwise convolution of length 4 along the sequence axis, as one function of the argument arrays.

  For an input x of shape [4, 4096, 16, 128] (batch, position, head, channel) and filter taps w of shape
  [4, 16, 128] (tap, head, channel), the result at (b, s, h, d) is

      ((x[b,s,h,d] · w[0,h,d] + x⁻¹ · w[1,h,d]) + x⁻² · w[2,h,d]) + x⁻³ · w[3,h,d]

  where x⁻ᵏ is x[b, s-k, h, d] when k ≤ s and zero otherwise: the sequence is padded with zeros on the left.
  The products and sums are the float instance's own, in this order and grouping; nothing is reassociated.

  The same function is stated a second time for ONE block of 1024 consecutive positions: the block's own rows,
  and for the first three rows the last three rows of the eight positions before the block (or zeros when the
  block starts the sequence). `convBlk_eq` says the block form, at the blocks cut out of x, is the array form.
-/
import Idealize.ShloMosaic.PureOps
import Idealize.ShloMosaic.Lib.ValueIdx

noncomputable section

namespace Cert.Conv4

open Idealize.ShloMosaic Idealize.ShloMosaic.ValueIdx

variable {F : FTy → Type} [FloatOps F]

abbrev SX : Shape := ⟨4, ![4, 4096, 16, 128]⟩
abbrev SW : Shape := ⟨3, ![4, 16, 128]⟩
abbrev SB : Shape := ⟨4, ![1, 1024, 16, 128]⟩
abbrev SH : Shape := ⟨4, ![1, 8, 16, 128]⟩

/-- The float zero the padding uses. -/
abbrev zero : F .f32 := Scalar.ofBits .f32 0x00000000#32

/-- The input `k` positions before `s`, zero before the start of the sequence. -/
def tap (x : SX.Idx → F .f32) (b : Fin 4) (s : Fin 4096) (h : Fin 16) (d : Fin 128) (k : ℕ) : F .f32 :=
  if hk : k ≤ s.val then x (ix4 b ⟨s.val - k, by have := s.isLt; omega⟩ h d) else zero

/-- Four taps combined, left to right. -/
def comb (a0 a1 a2 a3 w0 w1 w2 w3 : F .f32) : F .f32 :=
  FloatOps.addf (FloatOps.addf (FloatOps.addf (FloatOps.mulf a0 w0) (FloatOps.mulf a1 w1)) (FloatOps.mulf a2 w2)) (FloatOps.mulf a3 w3)

/-- The convolution of the whole array. -/
def conv (x : SX.Idx → F .f32) (w : SW.Idx → F .f32) : SX.Idx → F .f32 := fun j =>
  comb (tap x (j 0) (j 1) (j 2) (j 3) 0) (tap x (j 0) (j 1) (j 2) (j 3) 1) (tap x (j 0) (j 1) (j 2) (j 3) 2) (tap x (j 0) (j 1) (j 2) (j 3) 3)
    (w (ix3 0 (j 2) (j 3))) (w (ix3 1 (j 2) (j 3))) (w (ix3 2 (j 2) (j 3))) (w (ix3 3 (j 2) (j 3)))

/-- Within a block: row `r - k` of the block when `k ≤ r`; else row `8 + r - k` of the eight positions before the
    block, or zero when `z` says the block starts the sequence. -/
def tapBlk (X : SB.Idx → F .f32) (H : SH.Idx → F .f32) (z : BitVec 1) (r : Fin 1024) (h : Fin 16) (d : Fin 128) (k : ℕ) : F .f32 :=
  if hk : k ≤ r.val then X (ix4 0 ⟨r.val - k, by have := r.isLt; omega⟩ h d)
  else Scalar.select z zero (H (ix4 0 ⟨8 + r.val - k, by omega⟩ h d))

/-- The convolution of one block. -/
def convBlk (X : SB.Idx → F .f32) (H : SH.Idx → F .f32) (w : SW.Idx → F .f32) (z : BitVec 1) : SB.Idx → F .f32 := fun j =>
  comb (tapBlk X H z (j 1) (j 2) (j 3) 0) (tapBlk X H z (j 1) (j 2) (j 3) 1) (tapBlk X H z (j 1) (j 2) (j 3) 2) (tapBlk X H z (j 1) (j 2) (j 3) 3)
    (w (ix3 0 (j 2) (j 3))) (w (ix3 1 (j 2) (j 3))) (w (ix3 2 (j 2) (j 3))) (w (ix3 3 (j 2) (j 3)))

end Cert.Conv4

end
-- ==== Proof.K.Taps.lean ====
/-
  The kernel's stored values read at one index.

  Each value the kernel stores is a chain of layout operations (slices, shape casts, broadcasts, a concatenation)
  around four products and three sums. Read at an index given by its coordinates (row, head, channel), such a value is
  the four-tap combination of the spec, comb, of four rows of the loaded block and the four filter rows at that
  head and channel. The lemmas below say so for every float instance: first each layout operation read at an index,
  then each stored value.
-/
import proofs.«164929_j54657753809306_2_alg».proof.Proof.Gen.Kernel.Skeleton
import proofs.«164929_j54657753809306_2_alg».proof.Proof.Spec
import Idealize.ShloMosaic.Lib.ValueIdx
import Idealize.ShloMosaic.Lib.Pipeline.Value
import Idealize.ShloMosaic.Lib.ValueLayout

noncomputable section

namespace Cert.Kernel.Hand

open Cert.Kernel Cert.Kernel.Gen Idealize.ShloMosaic Idealize.ShloMosaic.ValueIdx Cert.Conv4

variable {F : FTy → Type} [FloatOps F]

/-! ## Layout operations read at an index -/

section Layout
variable {α : Type}

/-- A rank-3 array cut along its first axis from row o reads, at (j, b, c), the source at (j + o, b, c). -/
theorem slice3_axis0 {n m n1 n2 : Nat} (o : Nat) (X : (⟨3, ![n, n1, n2]⟩ : Shape).Idx → α)
    (hs : (⟨3, ![n, n1, n2]⟩ : Shape).Slices ![o, 0, 0] ⟨3, ![m, n1, n2]⟩)
    (j : Fin m) (b : Fin n1) (c : Fin n2) (k : Fin n) (hk : k.val = j.val + o) :
    extractStridedSlice ⟨3, ![m, n1, n2]⟩ ![o, 0, 0] X hs (ix3 j b c) = X (ix3 k b c) :=
  extractStridedSlice_apply _ _ _ _ _ (fun ax => by
    match ax with
    | ⟨0, _⟩ => exact hk.trans (Nat.add_comm _ _)
    | ⟨1, _⟩ => exact (Nat.zero_add _).symm
    | ⟨2, _⟩ => exact (Nat.zero_add _).symm)

/-- Rows o, o + 1, … of a block [1, n, 16, 128] viewed as [n, 16, 128]: at (r, h, d), the block at (0, r + o, h, d). -/
theorem row_apply {n m : Nat} (o : Nat) (v : (⟨4, ![1, n, 16, 128]⟩ : Shape).Idx → α)
    (hc : (⟨4, ![1, n, 16, 128]⟩ : Shape).ShapeCasts ⟨3, ![n, 16, 128]⟩)
    (hs : (⟨3, ![n, 16, 128]⟩ : Shape).Slices ![o, 0, 0] ⟨3, ![m, 16, 128]⟩)
    (r : Fin m) (h : Fin 16) (d : Fin 128) (k : Fin n) (hk : k.val = r.val + o) :
    extractStridedSlice ⟨3, ![m, 16, 128]⟩ ![o, 0, 0] (shapeCast ⟨3, ![n, 16, 128]⟩ v hc) hs (ix3 r h d)
      = v (ix4 (0 : Fin 1) k h d) :=
  (slice3_axis0 o _ hs r h d k hk).trans (shapeCast_1abc_abc_apply v hc k h d)

/-- Filter row o, cut out of the four, flattened, given back its unit axis and repeated over n rows: at (r, h, d),
    the filter at (o, h, d). -/
theorem wrow_apply {n : Nat} (o : Nat) (v0 : S4x16x128.Idx → α)
    (hs : S4x16x128.Slices ![o, 0, 0] S1x16x128) (hc1 : S1x16x128.ShapeCasts S16x128)
    (hc2 : S16x128.ShapeCasts S1x16x128) (hb : S1x16x128.Broadcasts ⟨3, ![n, 16, 128]⟩)
    (r : Fin n) (h : Fin 16) (d : Fin 128) (k : Fin 4) (hk : k.val = o) :
    broadcastTo ⟨3, ![n, 16, 128]⟩
        (shapeCast S1x16x128 (shapeCast S16x128 (extractStridedSlice S1x16x128 ![o, 0, 0] v0 hs) hc1) hc2) hb (ix3 r h d)
      = v0 (ix3 k h d) := by
  refine (broadcastTo_apply _ hb (ix3 r h d) (ix3 (0 : Fin 1) h d) (fun a => ?_)).trans ?_
  · match a with
    | ⟨0, _⟩ => rfl
    | ⟨1, _⟩ => rfl
    | ⟨2, _⟩ => rfl
  refine (shapeCast_ab_1ab_apply _ hc2 0 h d).trans ?_
  refine (shapeCast_1ab_ab_apply _ hc1 h d).trans ?_
  exact slice3_axis0 o v0 hs 0 h d k (hk.trans (Nat.zero_add o).symm)

/-- A choice between two arrays on one bit, read at an index, is the choice between their elements. -/
theorem select_fn_apply {ι : Type} (c : BitVec 1) (a b : ι → α) (i : ι) :
    (Scalar.select c a b) i = Scalar.select c (a i) (b i) := by
  unfold Scalar.select
  split <;> rfl

end Layout

/-! ## The stored values read at an index -/

/-- The first 253 output rows of the first 256-row chunk: row r + 3 of the chunk and the three rows before it. -/
theorem pay9_apply (v0 : Vec F S4x16x128 .f32) (v6 : Vec F S1x256x16x128 .f32) (r : Fin 253) (h : Fin 16) (d : Fin 128) :
    k0_pay9 v0 v6 (ix4 0 r h d)
      = comb (v6 (ix4 0 ⟨r.val + 3, by have := r.isLt; omega⟩ h d)) (v6 (ix4 0 ⟨r.val + 2, by have := r.isLt; omega⟩ h d))
          (v6 (ix4 0 ⟨r.val + 1, by have := r.isLt; omega⟩ h d)) (v6 (ix4 0 ⟨r.val, by have := r.isLt; omega⟩ h d))
          (v0 (ix3 0 h d)) (v0 (ix3 1 h d)) (v0 (ix3 2 h d)) (v0 (ix3 3 h d)) := by
  unfold k0_pay9 k0_pay8
  refine (shapeCast_abc_1abc_apply _ _ 0 r h d).trans ?_
  exact congrArg₂ FloatOps.addf (congrArg₂ FloatOps.addf (congrArg₂ FloatOps.addf
      (congrArg₂ FloatOps.mulf (row_apply 3 v6 _ _ r h d _ rfl) (wrow_apply 0 v0 _ _ _ _ r h d 0 rfl))
      (congrArg₂ FloatOps.mulf (row_apply 2 v6 _ _ r h d _ rfl) (wrow_apply 1 v0 _ _ _ _ r h d 1 rfl)))
      (congrArg₂ FloatOps.mulf (row_apply 1 v6 _ _ r h d _ rfl) (wrow_apply 2 v0 _ _ _ _ r h d 2 rfl)))
      (congrArg₂ FloatOps.mulf (row_apply 0 v6 _ _ r h d _ rfl) (wrow_apply 3 v0 _ _ _ _ r h d 3 rfl))

/-- The first 253 output rows of a later 256-row chunk: the same combination, of that chunk's rows. -/
theorem pay4_apply (v0 : Vec F S4x16x128 .f32) (v78 : Vec F S1x256x16x128 .f32) (r : Fin 253) (h : Fin 16) (d : Fin 128) :
    k0_pay4 v0 v78 (ix4 0 r h d)
      = comb (v78 (ix4 0 ⟨r.val + 3, by have := r.isLt; omega⟩ h d)) (v78 (ix4 0 ⟨r.val + 2, by have := r.isLt; omega⟩ h d))
          (v78 (ix4 0 ⟨r.val + 1, by have := r.isLt; omega⟩ h d)) (v78 (ix4 0 ⟨r.val, by have := r.isLt; omega⟩ h d))
          (v0 (ix3 0 h d)) (v0 (ix3 1 h d)) (v0 (ix3 2 h d)) (v0 (ix3 3 h d)) := by
  unfold k0_pay4 k0_pay3
  refine (shapeCast_abc_1abc_apply _ _ 0 r h d).trans ?_
  exact congrArg₂ FloatOps.addf (congrArg₂ FloatOps.addf (congrArg₂ FloatOps.addf
      (congrArg₂ FloatOps.mulf (row_apply 3 v78 _ _ r h d _ rfl) (wrow_apply 0 v0 _ _ _ _ r h d 0 rfl))
      (congrArg₂ FloatOps.mulf (row_apply 2 v78 _ _ r h d _ rfl) (wrow_apply 1 v0 _ _ _ _ r h d 1 rfl)))
      (congrArg₂ FloatOps.mulf (row_apply 1 v78 _ _ r h d _ rfl) (wrow_apply 2 v0 _ _ _ _ r h d 2 rfl)))
      (congrArg₂ FloatOps.mulf (row_apply 0 v78 _ _ r h d _ rfl) (wrow_apply 3 v0 _ _ _ _ r h d 3 rfl))

/-- The six rows around the start of the first chunk: three rows carried in from before the block (zeros when the block
    starts the sequence), then the chunk's first three rows. -/
theorem pay10_apply (i : grid0.Coords) (v1 : Vec F S1x3x16x128 .f32) (v6 : Vec F S1x256x16x128 .f32)
    (j : Fin 6) (h : Fin 16) (d : Fin 128) :
    k0_pay10 i v1 v6 (ix3 j h d)
      = if hj : j.val < 3 then
          Scalar.select (Scalar.cmpi .eq (BitVec.ofNat 32 (i 1).val) 0#32) (zero (F := F)) (v1 (ix4 0 ⟨j.val, hj⟩ h d))
        else v6 (ix4 0 ⟨j.val - 3, by have := j.isLt; omega⟩ h d) := by
  unfold k0_pay10 k0_pay8
  by_cases hj : j.val < 3
  · rw [dif_pos hj]
    refine (concatenate_pair_apply_left (t := S6x16x128) (s₁ := S3x16x128) (s₂ := S3x16x128) 0 _ _ _ (ix3 j h d) rfl
      (ix3 ⟨j.val, hj⟩ h d) (fun b => ?_)).trans ?_
    · match b with
      | ⟨0, _⟩ => rfl
      | ⟨1, _⟩ => rfl
      | ⟨2, _⟩ => rfl
    refine (select_fn_apply _ _ _ _).trans ?_
    exact congrArg (Scalar.select _ _) (shapeCast_1abc_abc_apply v1 _ ⟨j.val, hj⟩ h d)
  · rw [dif_neg hj]
    have hj3 : j.val - 3 < 3 := by have := j.isLt; omega
    refine (concatenate_pair_apply_right (t := S6x16x128) (s₁ := S3x16x128) (s₂ := S3x16x128) 0 _ _ _ (ix3 j h d) rfl rfl
      (ix3 ⟨j.val - 3, hj3⟩ h d) (fun b hb => ?_) ?_).trans ?_
    · match b with
      | ⟨0, _⟩ => exact absurd rfl hb
      | ⟨1, _⟩ => rfl
      | ⟨2, _⟩ => rfl
    · show j.val - 3 + 3 = j.val
      omega
    exact row_apply 0 v6 _ _ ⟨j.val - 3, hj3⟩ h d _ rfl

/-- The six rows around the start of a later chunk: the three rows before it, then its first three rows. -/
theorem pay5_apply (v75 : Vec F S1x3x16x128 .f32) (v78 : Vec F S1x256x16x128 .f32) (j : Fin 6) (h : Fin 16) (d : Fin 128) :
    k0_pay5 v75 v78 (ix3 j h d)
      = if hj : j.val < 3 then v75 (ix4 0 ⟨j.val, hj⟩ h d)
        else v78 (ix4 0 ⟨j.val - 3, by have := j.isLt; omega⟩ h d) := by
  unfold k0_pay5 k0_pay3
  by_cases hj : j.val < 3
  · rw [dif_pos hj]
    refine (concatenate_pair_apply_left (t := S6x16x128) (s₁ := S3x16x128) (s₂ := S3x16x128) 0 _ _ _ (ix3 j h d) rfl
      (ix3 ⟨j.val, hj⟩ h d) (fun b => ?_)).trans ?_
    · match b with
      | ⟨0, _⟩ => rfl
      | ⟨1, _⟩ => rfl
      | ⟨2, _⟩ => rfl
    exact shapeCast_1abc_abc_apply v75 _ ⟨j.val, hj⟩ h d
  · rw [dif_neg hj]
    have hj3 : j.val - 3 < 3 := by have := j.isLt; omega
    refine (concatenate_pair_apply_right (t := S6x16x128) (s₁ := S3x16x128) (s₂ := S3x16x128) 0 _ _ _ (ix3 j h d) rfl rfl
      (ix3 ⟨j.val - 3, hj3⟩ h d) (fun b hb => ?_) ?_).trans ?_
    · match b with
      | ⟨0, _⟩ => exact absurd rfl hb
      | ⟨1, _⟩ => rfl
      | ⟨2, _⟩ => rfl
    · show j.val - 3 + 3 = j.val
      omega
    exact row_apply 0 v78 _ _ ⟨j.val - 3, hj3⟩ h d _ rfl

/-- The first three output rows of the first chunk, from the six rows around its start. -/
theorem pay1_apply (v0 : Vec F S4x16x128 .f32) (v39 : FVec F S6x16x128 .f32) (r : Fin 3) (h : Fin 16) (d : Fin 128) :
    k0_pay1 v0 v39 (ix4 0 r h d)
      = comb (v39 (ix3 ⟨r.val + 3, by have := r.isLt; omega⟩ h d)) (v39 (ix3 ⟨r.val + 2, by have := r.isLt; omega⟩ h d))
          (v39 (ix3 ⟨r.val + 1, by have := r.isLt; omega⟩ h d)) (v39 (ix3 ⟨r.val, by have := r.isLt; omega⟩ h d))
          (v0 (ix3 0 h d)) (v0 (ix3 1 h d)) (v0 (ix3 2 h d)) (v0 (ix3 3 h d)) := by
  unfold k0_pay1
  refine (shapeCast_abc_1abc_apply _ _ 0 r h d).trans ?_
  exact congrArg₂ FloatOps.addf (congrArg₂ FloatOps.addf (congrArg₂ FloatOps.addf
      (congrArg₂ FloatOps.mulf (slice3_axis0 3 v39 _ r h d _ rfl) (wrow_apply 0 v0 _ _ _ _ r h d 0 rfl))
      (congrArg₂ FloatOps.mulf (slice3_axis0 2 v39 _ r h d _ rfl) (wrow_apply 1 v0 _ _ _ _ r h d 1 rfl)))
      (congrArg₂ FloatOps.mulf (slice3_axis0 1 v39 _ r h d _ rfl) (wrow_apply 2 v0 _ _ _ _ r h d 2 rfl)))
      (congrArg₂ FloatOps.mulf (slice3_axis0 0 v39 _ r h d _ rfl) (wrow_apply 3 v0 _ _ _ _ r h d 3 rfl))

/-- The first three output rows of a later chunk, over any six rows around its start, with the first product's two
    factors (the rows from the fourth on, and the first filter row flattened) passed in as the loop passes them. -/
theorem pay2_core (v0 : Vec F S4x16x128 .f32) (v113 : FVec F S6x16x128 .f32)
    (hs : S6x16x128.Slices ![3, 0, 0] S3x16x128) (hs0 : S4x16x128.Slices ![0, 0, 0] S1x16x128)
    (hc : S1x16x128.ShapeCasts S16x128) (r : Fin 3) (h : Fin 16) (d : Fin 128) :
    k0_pay2 v0 v113 (extractStridedSlice S3x16x128 ![3, 0, 0] v113 hs)
        (shapeCast S16x128 (extractStridedSlice S1x16x128 ![0, 0, 0] v0 hs0) hc) (ix4 0 r h d)
      = comb (v113 (ix3 ⟨r.val + 3, by have := r.isLt; omega⟩ h d)) (v113 (ix3 ⟨r.val + 2, by have := r.isLt; omega⟩ h d))
          (v113 (ix3 ⟨r.val + 1, by have := r.isLt; omega⟩ h d)) (v113 (ix3 ⟨r.val, by have := r.isLt; omega⟩ h d))
          (v0 (ix3 0 h d)) (v0 (ix3 1 h d)) (v0 (ix3 2 h d)) (v0 (ix3 3 h d)) := by
  unfold k0_pay2
  refine (shapeCast_abc_1abc_apply _ _ 0 r h d).trans ?_
  exact congrArg₂ FloatOps.addf (congrArg₂ FloatOps.addf (congrArg₂ FloatOps.addf
      (congrArg₂ FloatOps.mulf (slice3_axis0 3 v113 _ r h d _ rfl) (wrow_apply 0 v0 _ _ _ _ r h d 0 rfl))
      (congrArg₂ FloatOps.mulf (slice3_axis0 2 v113 _ r h d _ rfl) (wrow_apply 1 v0 _ _ _ _ r h d 1 rfl)))
      (congrArg₂ FloatOps.mulf (slice3_axis0 1 v113 _ r h d _ rfl) (wrow_apply 2 v0 _ _ _ _ r h d 2 rfl)))
      (congrArg₂ FloatOps.mulf (slice3_axis0 0 v113 _ r h d _ rfl) (wrow_apply 3 v0 _ _ _ _ r h d 3 rfl))

/-- The first three output rows of a later chunk, as the loop computes them from the six rows around the chunk's start. -/
theorem pay2_apply (v0 : Vec F S4x16x128 .f32) (v75 : Vec F S1x3x16x128 .f32) (v78 : Vec F S1x256x16x128 .f32)
    (r : Fin 3) (h : Fin 16) (d : Fin 128) :
    k0_pay2 v0 (k0_pay5 v75 v78) (k0_pay6 v75 v78) (k0_pay7 v0) (ix4 0 r h d)
      = comb (k0_pay5 v75 v78 (ix3 ⟨r.val + 3, by have := r.isLt; omega⟩ h d))
          (k0_pay5 v75 v78 (ix3 ⟨r.val + 2, by have := r.isLt; omega⟩ h d))
          (k0_pay5 v75 v78 (ix3 ⟨r.val + 1, by have := r.isLt; omega⟩ h d))
          (k0_pay5 v75 v78 (ix3 ⟨r.val, by have := r.isLt; omega⟩ h d))
          (v0 (ix3 0 h d)) (v0 (ix3 1 h d)) (v0 (ix3 2 h d)) (v0 (ix3 3 h d)) := by
  unfold k0_pay6 k0_pay7
  exact pay2_core v0 (k0_pay5 v75 v78) _ _ _ r h d

end Cert.Kernel.Hand

end
-- ==== Proof.K.Pieces.lean ====
/-
  Each store of the body writes the convolution: the payload of every store, read at an index of its rectangle, is
  the block's convolution `convBlk` at the row the rectangle places that index on.

  A chunk of 256 rows starting at row `n` of the block is written by two stores. Rows `n + 3 … n + 255` need only the
  chunk's own rows. Rows `n … n + 2` also need the three rows before the chunk: rows `n - 3 … n - 1` of the block when
  `n ≥ 3`, and for the first chunk the last three of the eight positions before the block, or zeros when the block
  starts the sequence.
-/
import proofs.«164929_j54657753809306_2_alg».proof.Proof.Gen.Kernel.Skeleton
import proofs.«164929_j54657753809306_2_alg».proof.Proof.Spec
import proofs.«164929_j54657753809306_2_alg».proof.Proof.K.Taps

import Idealize.ShloMosaic.Lib.ValueIdx

noncomputable section

namespace Cert.Kernel.Hand

open Cert.Kernel Cert.Kernel.Gen Cert.Conv4
open Idealize.ShloMosaic Idealize.ShloMosaic.ValueIdx

variable {F : FTy → Type} [FloatOps F]

variable (X : Vec F S1x1024x16x128 .f32) (Hh : Vec F S1x8x16x128 .f32) (Wt : Vec F S4x16x128 .f32)

/-! ## Reading the block form -/

/-- The four taps combined, when the taps and the filter entries agree one by one. -/
theorem comb_congr {a0 a1 a2 a3 w0 w1 w2 w3 b0 b1 b2 b3 u0 u1 u2 u3 : F .f32}
    (h0 : a0 = b0) (h1 : a1 = b1) (h2 : a2 = b2) (h3 : a3 = b3) (g0 : w0 = u0) (g1 : w1 = u1) (g2 : w2 = u2) (g3 : w3 = u3) :
    comb a0 a1 a2 a3 w0 w1 w2 w3 = comb b0 b1 b2 b3 u0 u1 u2 u3 := by
  subst h0 h1 h2 h3 g0 g1 g2 g3; rfl

/-- The block's convolution at row `R`: the four taps at that row and the four filter entries, combined. -/
theorem convBlk_ix4 (z : BitVec 1) (R : Fin 1024) (h : Fin 16) (d : Fin 128) :
    convBlk X Hh Wt z (ix4 0 R h d)
      = comb (tapBlk X Hh z R h d 0) (tapBlk X Hh z R h d 1) (tapBlk X Hh z R h d 2) (tapBlk X Hh z R h d 3)
          (Wt (ix3 0 h d)) (Wt (ix3 1 h d)) (Wt (ix3 2 h d)) (Wt (ix3 3 h d)) := rfl

/-- A tap that stays inside the block is the block's row that many rows up. -/
theorem tapBlk_in (z : BitVec 1) (R : Fin 1024) (h : Fin 16) (d : Fin 128) (k : ℕ) (hk : k ≤ R.val)
    (m : Fin 1024) (hm : m.val = R.val - k) : tapBlk X Hh z R h d k = X (ix4 0 m h d) := by
  unfold tapBlk
  rw [dif_pos hk]
  exact congrArg X (congrArg (fun s => ix4 0 s h d) (Fin.ext hm.symm))

/-- A tap that leaves the block reads the eight positions before it, or zero when the block starts the sequence. -/
theorem tapBlk_out (z : BitVec 1) (R : Fin 1024) (h : Fin 16) (d : Fin 128) (k : ℕ) (hk : ¬ k ≤ R.val)
    (q : Fin 8) (hq : q.val = 8 + R.val - k) :
    tapBlk X Hh z R h d k = Scalar.select z (zero (F := F)) (Hh (ix4 0 q h d)) := by
  unfold tapBlk
  rw [dif_neg hk]
  exact congrArg (fun s => Scalar.select z (zero (F := F)) (Hh (ix4 0 s h d))) (Fin.ext hq.symm)

/-- Of the six rows around the start of a later chunk (three before it, then its first three), row `j` is row
    `n - 3 + j` of the block. -/
theorem pay5_row (n : ℕ) (hn3 : 3 ≤ n) (hn : n + 256 ≤ 1024) (u : Vec F S1x3x16x128 .f32) (v : Vec F S1x256x16x128 .f32)
    (hu : ∀ (j : Fin 3) (h : Fin 16) (d : Fin 128), u (ix4 0 j h d) = X (ix4 0 ⟨n - 3 + j.val, by have := j.isLt; omega⟩ h d))
    (hv : ∀ (r : Fin 256) (h : Fin 16) (d : Fin 128), v (ix4 0 r h d) = X (ix4 0 ⟨n + r.val, by have := r.isLt; omega⟩ h d))
    (j : Fin 6) (h : Fin 16) (d : Fin 128) (m : Fin 1024) (hm : m.val + 3 = n + j.val) :
    k0_pay5 u v (ix3 j h d) = X (ix4 0 m h d) := by
  have hj6 : j.val < 6 := j.isLt
  rw [pay5_apply]
  by_cases hj : j.val < 3
  · rw [dif_pos hj, hu]
    exact congrArg X (congrArg (fun s => ix4 0 s h d) (Fin.ext (by show n - 3 + j.val = m.val; omega)))
  · rw [dif_neg hj, hv]
    exact congrArg X (congrArg (fun s => ix4 0 s h d) (Fin.ext (by show n + (j.val - 3) = m.val; omega)))

/-- Of the six rows around the start of the block (the last three of the eight positions before it, or zeros, then its
    first three), row `r + 3 - k` is the tap `k` of the block's row `r`. -/
theorem pay10_row (i : grid0.Coords) (u : Vec F S1x3x16x128 .f32) (v : Vec F S1x256x16x128 .f32)
    (hu : ∀ (j : Fin 3) (h : Fin 16) (d : Fin 128), u (ix4 0 j h d) = Hh (ix4 0 ⟨5 + j.val, by have := j.isLt; omega⟩ h d))
    (hv : ∀ (r : Fin 256) (h : Fin 16) (d : Fin 128), v (ix4 0 r h d) = X (ix4 0 ⟨r.val, by have := r.isLt; omega⟩ h d))
    (r : Fin 3) (k : ℕ) (hk : k ≤ 3) (j : Fin 6) (hj : j.val + k = r.val + 3) (h : Fin 16) (d : Fin 128) :
    k0_pay10 i u v (ix3 j h d)
      = tapBlk X Hh (Scalar.cmpi .eq (BitVec.ofNat 32 (i 1).val) 0#32) ⟨r.val, by have := r.isLt; omega⟩ h d k := by
  have hr : r.val < 3 := r.isLt
  rw [pay10_apply]
  by_cases hj3 : j.val < 3
  · rw [dif_pos hj3, hu]
    exact (tapBlk_out X Hh _ _ h d k (by show ¬ k ≤ r.val; omega) _ (by show 5 + j.val = 8 + r.val - k; omega)).symm
  · rw [dif_neg hj3, hv]
    exact (tapBlk_in X Hh _ _ h d k (by show k ≤ r.val; omega) _ (by show j.val - 3 = r.val - k; omega)).symm

/-- Rows `n + 3 … n + 255` of a chunk starting at row `n`: computed from the chunk's own 256 rows. -/
theorem piece_rows (z : BitVec 1) (W' : Vec F S4x16x128 .f32) (hW : ∀ (k : Fin 4) (h : Fin 16) (d : Fin 128), W' (ix3 k h d) = Wt (ix3 k h d))
    (n : ℕ) (hn : n + 256 ≤ 1024) (v : Vec F S1x256x16x128 .f32)
    (hv : ∀ (r : Fin 256) (h : Fin 16) (d : Fin 128), v (ix4 0 r h d) = X (ix4 0 ⟨n + r.val, by have := r.isLt; omega⟩ h d))
    (r : Fin 253) (h : Fin 16) (d : Fin 128) :
    k0_pay4 W' v (ix4 0 r h d) = convBlk X Hh Wt z (ix4 0 ⟨n + 3 + r.val, by have := r.isLt; omega⟩ h d) := by
  rw [pay4_apply, convBlk_ix4]
  have hr : r.val < 253 := r.isLt
  exact comb_congr
    ((hv _ h d).trans (tapBlk_in X Hh z _ h d 0 (Nat.zero_le _) _ (by show n + (r.val + 3) = n + 3 + r.val - 0; omega)).symm)
    ((hv _ h d).trans (tapBlk_in X Hh z _ h d 1 (by show 1 ≤ n + 3 + r.val; omega) _ (by show n + (r.val + 2) = n + 3 + r.val - 1; omega)).symm)
    ((hv _ h d).trans (tapBlk_in X Hh z _ h d 2 (by show 2 ≤ n + 3 + r.val; omega) _ (by show n + (r.val + 1) = n + 3 + r.val - 2; omega)).symm)
    ((hv _ h d).trans (tapBlk_in X Hh z _ h d 3 (by show 3 ≤ n + 3 + r.val; omega) _ (by show n + (r.val) = n + 3 + r.val - 3; omega)).symm)
    (hW 0 h d) (hW 1 h d) (hW 2 h d) (hW 3 h d)

/-- The same for the first chunk's store (the same arithmetic, printed a second time). -/
theorem piece_rows0 (z : BitVec 1) (W' : Vec F S4x16x128 .f32) (hW : ∀ (k : Fin 4) (h : Fin 16) (d : Fin 128), W' (ix3 k h d) = Wt (ix3 k h d))
    (v : Vec F S1x256x16x128 .f32)
    (hv : ∀ (r : Fin 256) (h : Fin 16) (d : Fin 128), v (ix4 0 r h d) = X (ix4 0 ⟨r.val, by have := r.isLt; omega⟩ h d))
    (r : Fin 253) (h : Fin 16) (d : Fin 128) :
    k0_pay9 W' v (ix4 0 r h d) = convBlk X Hh Wt z (ix4 0 ⟨3 + r.val, by have := r.isLt; omega⟩ h d) := by
  rw [pay9_apply, convBlk_ix4]
  have hr : r.val < 253 := r.isLt
  exact comb_congr
    ((hv _ h d).trans (tapBlk_in X Hh z _ h d 0 (Nat.zero_le _) _ (by show r.val + 3 = 3 + r.val - 0; omega)).symm)
    ((hv _ h d).trans (tapBlk_in X Hh z _ h d 1 (by show 1 ≤ 3 + r.val; omega) _ (by show r.val + 2 = 3 + r.val - 1; omega)).symm)
    ((hv _ h d).trans (tapBlk_in X Hh z _ h d 2 (by show 2 ≤ 3 + r.val; omega) _ (by show r.val + 1 = 3 + r.val - 2; omega)).symm)
    ((hv _ h d).trans (tapBlk_in X Hh z _ h d 3 (by show 3 ≤ 3 + r.val; omega) _ (by show r.val = 3 + r.val - 3; omega)).symm)
    (hW 0 h d) (hW 1 h d) (hW 2 h d) (hW 3 h d)

/-- Rows `n … n + 2` of a later chunk (`n ≥ 3`): from the three rows before the chunk and the chunk's first three. -/
theorem piece_edge (z : BitVec 1) (W' : Vec F S4x16x128 .f32) (hW : ∀ (k : Fin 4) (h : Fin 16) (d : Fin 128), W' (ix3 k h d) = Wt (ix3 k h d))
    (n : ℕ) (hn3 : 3 ≤ n) (hn : n + 256 ≤ 1024) (u : Vec F S1x3x16x128 .f32) (v : Vec F S1x256x16x128 .f32)
    (hu : ∀ (j : Fin 3) (h : Fin 16) (d : Fin 128), u (ix4 0 j h d) = X (ix4 0 ⟨n - 3 + j.val, by have := j.isLt; omega⟩ h d))
    (hv : ∀ (r : Fin 256) (h : Fin 16) (d : Fin 128), v (ix4 0 r h d) = X (ix4 0 ⟨n + r.val, by have := r.isLt; omega⟩ h d))
    (r : Fin 3) (h : Fin 16) (d : Fin 128) :
    k0_pay2 W' (k0_pay5 u v) (k0_pay6 u v) (k0_pay7 W') (ix4 0 r h d)
      = convBlk X Hh Wt z (ix4 0 ⟨n + r.val, by have := r.isLt; omega⟩ h d) := by
  rw [pay2_apply, convBlk_ix4]
  have hr : r.val < 3 := r.isLt
  have e : ∀ (k : ℕ) (hk : k ≤ 3) (j : Fin 6) (hj : j.val + k = r.val + 3),
      k0_pay5 u v (ix3 j h d) = tapBlk X Hh z ⟨n + r.val, by omega⟩ h d k := fun k hk j hj =>
    (pay5_row X n hn3 hn u v hu hv j h d ⟨n + r.val - k, by omega⟩ (by show n + r.val - k + 3 = n + j.val; omega)).trans
      (tapBlk_in X Hh z _ h d k (by show k ≤ n + r.val; omega) _ rfl).symm
  exact comb_congr (e 0 (by omega) _ (by show r.val + 3 + 0 = r.val + 3; omega))
    (e 1 (by omega) _ (by show r.val + 2 + 1 = r.val + 3; omega))
    (e 2 (by omega) _ (by show r.val + 1 + 2 = r.val + 3; omega))
    (e 3 (by omega) _ (by show r.val + 3 = r.val + 3; omega))
    (hW 0 h d) (hW 1 h d) (hW 2 h d) (hW 3 h d)

/-- Rows `0 … 2` of the block: from the last three of the eight positions before the block (zeros when the block
    starts the sequence) and the block's first three rows. -/
theorem piece_edge0 (i : grid0.Coords) (W' : Vec F S4x16x128 .f32) (hW : ∀ (k : Fin 4) (h : Fin 16) (d : Fin 128), W' (ix3 k h d) = Wt (ix3 k h d))
    (u : Vec F S1x3x16x128 .f32) (v : Vec F S1x256x16x128 .f32)
    (hu : ∀ (j : Fin 3) (h : Fin 16) (d : Fin 128), u (ix4 0 j h d) = Hh (ix4 0 ⟨5 + j.val, by have := j.isLt; omega⟩ h d))
    (hv : ∀ (r : Fin 256) (h : Fin 16) (d : Fin 128), v (ix4 0 r h d) = X (ix4 0 ⟨r.val, by have := r.isLt; omega⟩ h d))
    (r : Fin 3) (h : Fin 16) (d : Fin 128) :
    k0_pay1 W' (k0_pay10 i u v) (ix4 0 r h d)
      = convBlk X Hh Wt (Scalar.cmpi .eq (BitVec.ofNat 32 (i 1).val) 0#32) (ix4 0 ⟨r.val, by have := r.isLt; omega⟩ h d) := by
  rw [pay1_apply, convBlk_ix4]
  exact comb_congr
    (pay10_row X Hh i u v hu hv r 0 (by omega) _ (by show r.val + 3 + 0 = r.val + 3; omega) h d)
    (pay10_row X Hh i u v hu hv r 1 (by omega) _ (by show r.val + 2 + 1 = r.val + 3; omega) h d)
    (pay10_row X Hh i u v hu hv r 2 (by omega) _ (by show r.val + 1 + 2 = r.val + 3; omega) h d)
    (pay10_row X Hh i u v hu hv r 3 (by omega) _ (by show r.val + 3 = r.val + 3; omega) h d)
    (hW 0 h d) (hW 1 h d) (hW 2 h d) (hW 3 h d)

end Cert.Kernel.Hand

end
-- ==== Proof.K.Body.lean ====
import proofs.«164929_j54657753809306_2_alg».proof.Proof.Gen.Kernel.Launch
import proofs.«164929_j54657753809306_2_alg».proof.Proof.Gen.Kernel.Skeleton
import proofs.«164929_j54657753809306_2_alg».proof.Proof.Gen.Kernel.Points
import proofs.«164929_j54657753809306_2_alg».proof.Proof.Spec
import Idealize.ShloMosaic.Lib.Pipeline.FrameBody
import Idealize.ShloMosaic.Lib.Ring
import Idealize.ShloMosaic.Lib.Tactic
import proofs.«164929_j54657753809306_2_alg».proof.Proof.K.Pieces
import Idealize.ShloMosaic.Lib.WholeRead
set_option maxRecDepth 16384

/-
  The body of the kernel at one grid point, for every float instance: handed the block of 1024 positions, the eight
  positions before it and the filter, it leaves the block's convolution in the output block.

  The body writes the output block chunk by chunk (four chunks of 256 rows, the last three in a counted loop), two
  stores per chunk. The loop's invariant is that every row below the current chunk already holds the convolution.
-/
noncomputable section

namespace Cert.Kernel.Hand

open Cert.Kernel Cert.Kernel.Gen Cert.Conv4
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block's rows below `n` hold `G`. -/
def AgreeBelow (arg5 : Memref sig .tc .vmem S1x1024x16x128 .f32) (G : S1x1024x16x128.Idx → Elt F .f32) (n : ℕ)
    (f : BufTy.Contents (Elt F) arg5.view.ty) : Prop :=
  ∀ y : S1x1024x16x128.Idx, (y 1).val < n → arg5.view.read (Elt F) f y = G y

/-- A unit-stride rectangle of `R` whole rows starting at row `o` places its index `(0, r, h, d)` at `(0, o + r, h, d)`. -/
theorem unit_emb_rows {R : ℕ} (o : ℕ)
    (hin : ∀ a, (![0, o, 0, 0] : Fin 4 → ℕ) a + (⟨4, ![1, R, 16, 128]⟩ : Shape).size a ≤ S1x1024x16x128.size a)
    (r : Fin R) (h : Fin 16) (d : Fin 128) (hr : o + r.val < 1024) :
    (Rect.unit (s := S1x1024x16x128) ![0, o, 0, 0] (⟨4, ![1, R, 16, 128]⟩ : Shape).size hin).emb (ix4 0 r h d)
      = ix4 0 ⟨o + r.val, hr⟩ h d := by
  funext a
  apply Fin.ext
  rw [Rect.emb_apply]
  match a with
  | ⟨0, _⟩ => show 0 + 1 * 0 = 0; rfl
  | ⟨1, _⟩ => show o + 1 * r.val = o + r.val; omega
  | ⟨2, _⟩ => show 0 + 1 * h.val = h.val; omega
  | ⟨3, _⟩ => show 0 + 1 * d.val = d.val; omega

/-- Membership in such a rectangle is a condition on the row alone. -/
theorem mem_unit_rows {R : ℕ} (o : ℕ)
    (hin : ∀ a, (![0, o, 0, 0] : Fin 4 → ℕ) a + (⟨4, ![1, R, 16, 128]⟩ : Shape).size a ≤ S1x1024x16x128.size a)
    (y : S1x1024x16x128.Idx) :
    y ∈ (Rect.unit (s := S1x1024x16x128) ![0, o, 0, 0] (⟨4, ![1, R, 16, 128]⟩ : Shape).size hin).set ↔ o ≤ (y 1).val ∧ (y 1).val < o + R := by
  rw [Rect.mem_set_unit]
  constructor
  · intro hm; exact hm 1
  · intro hm
    have h0 : (y 0).val < 1 := (y 0).isLt
    have h2 : (y 2).val < 16 := (y 2).isLt
    have h3 : (y 3).val < 128 := (y 3).isLt
    have key : ∀ a : Fin 4, (![0, o, 0, 0] : Fin 4 → ℕ) a ≤ (y a).val ∧ (y a).val < (![0, o, 0, 0] : Fin 4 → ℕ) a + (![1, R, 16, 128] : Fin 4 → ℕ) a := by
      intro a
      match a with
      | ⟨0, _⟩ => exact ⟨Nat.zero_le _, by show (y 0).val < 0 + 1; omega⟩
      | ⟨1, _⟩ => exact hm
      | ⟨2, _⟩ => exact ⟨Nat.zero_le _, by show (y 2).val < 0 + 16; omega⟩
      | ⟨3, _⟩ => exact ⟨Nat.zero_le _, by show (y 3).val < 0 + 128; omega⟩
    exact key

/-- Writing rows `n … n + 2` and rows `n + 3 … n + 255` with the convolution extends the agreement by one chunk. -/
theorem agree_step (arg5 : Memref sig .tc .vmem S1x1024x16x128 .f32) (G : S1x1024x16x128.Idx → Elt F .f32) (n : ℕ)
    (f : BufTy.Contents (Elt F) arg5.view.ty) (hf : AgreeBelow arg5 G n f)
    (oA oB : Fin 4 → ℕ) (nA : ℕ) (hnA : nA = n + 3) (hoA : oA = ![0, nA, 0, 0]) (hoB : oB = ![0, n, 0, 0])
    (hA : ∀ a, oA a + S1x253x16x128.size a ≤ S1x1024x16x128.size a) (hB : ∀ a, oB a + S1x3x16x128.size a ≤ S1x1024x16x128.size a)
    (pA : S1x253x16x128.Idx → Elt F .f32) (pB : S1x3x16x128.Idx → Elt F .f32)
    (hpA : ∀ (r : Fin 253) (h : Fin 16) (d : Fin 128) (hr : n + 3 + r.val < 1024), pA (ix4 0 r h d) = G (ix4 0 ⟨n + 3 + r.val, hr⟩ h d))
    (hpB : ∀ (r : Fin 3) (h : Fin 16) (d : Fin 128) (hr : n + r.val < 1024), pB (ix4 0 r h d) = G (ix4 0 ⟨n + r.val, hr⟩ h d)) :
    AgreeBelow arg5 G (n + 256) (arg5.view.writes (Elt F) f
      [⟨Rect.unit (s := S1x1024x16x128) oB S1x3x16x128.size hB, pB⟩, ⟨Rect.unit (s := S1x1024x16x128) oA S1x253x16x128.size hA, pA⟩]) := by
  subst hnA hoA hoB
  intro y hy
  by_cases hlt : (y 1).val < n
  · rw [View.read_writes_apply_of_forall_not_mem]
    · exact hf y hlt
    · intro p hp
      simp only [List.mem_cons, List.not_mem_nil, or_false] at hp
      rcases hp with rfl | rfl
      · intro hm; have := (mem_unit_rows (R := 3) n hB y).mp hm; omega
      · intro hm; have := (mem_unit_rows (R := 253) (n + 3) hA y).mp hm; omega
  · refine View.read_writes_apply_of_pieces _ _ G _ ?_ y ?_
    · intro p hp x
      simp only [List.mem_cons, List.not_mem_nil, or_false] at hp
      rcases hp with rfl | rfl
      · obtain ⟨r, h, d, rfl⟩ : ∃ (r : Fin 3) (h : Fin 16) (d : Fin 128), x = ix4 0 r h d :=
          ⟨x 1, x 2, x 3, by
            funext a
            match a with
            | ⟨0, _⟩ => exact Fin.eq_zero _
            | ⟨1, _⟩ => rfl
            | ⟨2, _⟩ => rfl
            | ⟨3, _⟩ => rfl⟩
        have hr : n + r.val < 1024 := by have h1 := hB 1; change n + 3 ≤ 1024 at h1; have := r.isLt; omega
        exact (hpB r h d hr).trans (congrArg G (unit_emb_rows (R := 3) n hB r h d hr).symm)
      · obtain ⟨r, h, d, rfl⟩ : ∃ (r : Fin 253) (h : Fin 16) (d : Fin 128), x = ix4 0 r h d :=
          ⟨x 1, x 2, x 3, by
            funext a
            match a with
            | ⟨0, _⟩ => exact Fin.eq_zero _
            | ⟨1, _⟩ => rfl
            | ⟨2, _⟩ => rfl
            | ⟨3, _⟩ => rfl⟩
        have hr : n + 3 + r.val < 1024 := by have h1 := hA 1; change n + 3 + 253 ≤ 1024 at h1; have := r.isLt; omega
        exact (hpA r h d hr).trans (congrArg G (unit_emb_rows (R := 253) (n + 3) hA r h d hr).symm)
    · by_cases h3 : (y 1).val < n + 3
      · exact ⟨_, List.mem_cons_self, (mem_unit_rows (R := 3) n hB y).mpr ⟨by omega, h3⟩⟩
      · exact ⟨_, List.mem_cons_of_mem _ List.mem_cons_self, (mem_unit_rows (R := 253) (n + 3) hA y).mpr ⟨by omega, by omega⟩⟩

/-- Agreement on all 1024 rows is equality. -/
theorem agree_all (arg5 : Memref sig .tc .vmem S1x1024x16x128 .f32) (G : S1x1024x16x128.Idx → Elt F .f32)
    (f : BufTy.Contents (Elt F) arg5.view.ty) (hf : AgreeBelow arg5 G 1024 f) : arg5.view.read (Elt F) f = G :=
  funext fun y => hf y (y 1).isLt

/-- Two spellings of one row give one index. -/
theorem ix4_row_congr {R : ℕ} (a b : ℕ) (ha : a < R) (hb : b < R) (e : a = b) (h : Fin 16) (d : Fin 128) :
    ix4 (0 : Fin 1) (⟨a, ha⟩ : Fin R) h d = ix4 (0 : Fin 1) (⟨b, hb⟩ : Fin R) h d := by
  subst e; rfl

/-! ## What the loads read -/

/-- A load of `R` whole rows from row `o` of a whole block held at contents that read `X` reads `X`'s rows. -/
theorem read_rows {R : ℕ} (arg : Memref sig .tc .vmem S1x1024x16x128 .f32) (harg : arg.IsWhole) (X : Vec F S1x1024x16x128 .f32)
    (off : Fin 4 → ℕ) (o : ℕ) (hoff : off = ![0, o, 0, 0])
    (hin : ∀ a, off a + (⟨4, ![1, R, 16, 128]⟩ : Shape).size a ≤ S1x1024x16x128.size a)
    (r : Fin R) (h : Fin 16) (d : Fin 128) (hr : o + r.val < 1024) :
    View.readAt (Elt F) arg.view (Rect.unit (s := S1x1024x16x128) off (⟨4, ![1, R, 16, 128]⟩ : Shape).size hin).toLoadRect (harg.unread X) (ix4 0 r h d)
      = X (ix4 0 ⟨o + r.val, hr⟩ h d) := by
  subst hoff
  exact (harg.readAt_unread X _ _).trans (congrArg X (unit_emb_rows o hin r h d hr))

/-- The load of the last three of the eight rows before the block. -/
theorem read_halo (arg : Memref sig .tc .vmem S1x8x16x128 .f32) (harg : arg.IsWhole) (Hh : Vec F S1x8x16x128 .f32)
    (hin : ∀ a, (![0, 5, 0, 0] : Fin 4 → ℕ) a + S1x3x16x128.size a ≤ S1x8x16x128.size a)
    (j : Fin 3) (h : Fin 16) (d : Fin 128) :
    View.readAt (Elt F) arg.view (Rect.unit (s := S1x8x16x128) ![0, 5, 0, 0] S1x3x16x128.size hin).toLoadRect (harg.unread Hh) (ix4 0 j h d)
      = Hh (ix4 0 ⟨5 + j.val, by have := j.isLt; omega⟩ h d) := by
  refine (harg.readAt_unread Hh _ _).trans (congrArg Hh ?_)
  funext a
  apply Fin.ext
  rw [LoadRect.idx_apply]
  match a with
  | ⟨0, _⟩ => show 0 + 1 * 0 = 0; rfl
  | ⟨1, _⟩ => show 5 + 1 * j.val = 5 + j.val; omega
  | ⟨2, _⟩ => show 0 + 1 * h.val = h.val; omega
  | ⟨3, _⟩ => show 0 + 1 * d.val = d.val; omega

/-- The load of the whole filter. -/
theorem read_filter (arg : Memref sig .tc .vmem S4x16x128 .f32) (harg : arg.IsWhole) (Wt : Vec F S4x16x128 .f32)
    (hin : ∀ a, (![0, 0, 0] : Fin 3 → ℕ) a + S4x16x128.size a ≤ S4x16x128.size a)
    (k : Fin 4) (h : Fin 16) (d : Fin 128) :
    View.readAt (Elt F) arg.view (Rect.unit (s := S4x16x128) ![0, 0, 0] S4x16x128.size hin).toLoadRect (harg.unread Wt) (ix3 k h d)
      = Wt (ix3 k h d) := by
  refine (harg.readAt_unread Wt _ _).trans (congrArg Wt ?_)
  funext a
  apply Fin.ext
  rw [LoadRect.idx_apply]
  match a with
  | ⟨0, _⟩ => show 0 + 1 * k.val = k.val; omega
  | ⟨1, _⟩ => show 0 + 1 * h.val = h.val; omega
  | ⟨2, _⟩ => show 0 + 1 * d.val = d.val; omega

/-! ## The loop and the body -/

/-- Before trip `k`: the input block as it was, and the output block's rows below `256 k + 256` at the convolution. -/
def loopI (c : Dev nD) (arg2 : Memref sig .tc .vmem S1x1024x16x128 .f32) (harg2 : arg2.IsWhole)
    (arg5 : Memref sig .tc .vmem S1x1024x16x128 .f32) (X : Vec F S1x1024x16x128 .f32) (G : S1x1024x16x128.Idx → Elt F .f32)
    (k : ℕ) (_u : Unit) : sProp 𝕄 :=
  iprop((arg2.view.loc (c : Thread nD τ) ↦[arg2.view.set]{fullShare} harg2.unread X)
    ∗ (∃ f, (arg5.view.loc (c : Thread nD τ) ↦[arg5.view.set]{fullShare} f) ∗ ⌜AgreeBelow arg5 G (256 * k + 256) f⌝))

theorem trips_eq : Scf.trips k0_t1_loop.lb k0_t1_loop.ub k0_t1_loop.st = 3 := by decide

set_option maxHeartbeats 2000000 in
/-- The body on any whole staging memrefs: from the inputs at their blocks and the output at anything, to the inputs
    as they were and the output at the block's convolution. -/
theorem bodyRun (c : Dev nD) (i : grid0.Coords)
    (arg2 : Memref sig .tc .vmem S1x1024x16x128 .f32) (harg2 : arg2.IsWhole)
    (arg3 : Memref sig .tc .vmem S1x8x16x128 .f32) (harg3 : arg3.IsWhole)
    (arg4 : Memref sig .tc .vmem S4x16x128 .f32) (harg4 : arg4.IsWhole)
    (arg5 : Memref sig .tc .vmem S1x1024x16x128 .f32) (harg5 : arg5.IsWhole)
    (X : Vec F S1x1024x16x128 .f32) (Hh : Vec F S1x8x16x128 .f32) (Wt : Vec F S4x16x128 .f32)
    (E : Set ℕ) (K : PUnit → sProp 𝕄) :
    iprop(owns (c : Thread nD τ) arg2 fullShare X ∗ owns (c : Thread nD τ) arg3 fullShare Hh ∗ owns (c : Thread nD τ) arg4 fullShare Wt
        ∗ (∃ d, owns (c : Thread nD τ) arg5 fullShare d)
        ∗ (iprop(owns (c : Thread nD τ) arg2 fullShare X ∗ owns (c : Thread nD τ) arg3 fullShare Hh ∗ owns (c : Thread nD τ) arg4 fullShare Wt
            ∗ owns (c : Thread nD τ) arg5 fullShare (convBlk X Hh Wt (Scalar.cmpi .eq (BitVec.ofNat 32 (i 1).val) 0#32))) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2
  obtain rfl := harg3.eq_unread hf3
  obtain rfl := harg4.eq_unread hf4
  sl_exec
  sl_for (loopI c arg2 harg2 arg5 X (convBlk X Hh Wt (Scalar.cmpi .eq (BitVec.ofNat 32 (i 1).val) 0#32))) $$ [H2 H5]
  · intro k acc
    unfold loopI
    iintro ⟨H2, ⟨%f, H5, %hf⟩⟩
    sl_exec
    sl_step
    isplitl [H2]; · iexact H2
    iexists _
    isplitl [H5]; · iexact H5
    ipureintro
    have hk : k.val < 3 := trips_eq ▸ k.isLt
    have e : 256 * (k.val + 1) + 256 = (256 * k.val + 256) + 256 := by omega
    rw [e]
    unfold bodyRun.sl.r_2 bodyRun.sl.r_3 bodyRun.sl.r_4 bodyRun.sl.r
    have hW := fun (q : Fin 4) (h : Fin 16) (d : Fin 128) => read_filter arg4 harg4 Wt inb_S4x16x128_S4x16x128_0_0_0 q h d
    have hv : ∀ (r : Fin 256) (h : Fin 16) (d : Fin 128),
        View.readAt (Elt F) arg2.view (Rect.unit (s := S1x1024x16x128) (k0_off2 k) S1x256x16x128.size (k0_off2_inb k)).toLoadRect (harg2.unread X) (ix4 0 r h d)
          = X (ix4 0 ⟨256 * k.val + 256 + r.val, by have := r.isLt; omega⟩ h d) :=
      fun r h d => read_rows (R := 256) arg2 harg2 X (k0_off2 k) (256 * k.val + 256) (k0_off2_eq k) (k0_off2_inb k) r h d _
    have hu : ∀ (j : Fin 3) (h : Fin 16) (d : Fin 128),
        View.readAt (Elt F) arg2.view (Rect.unit (s := S1x1024x16x128) (k0_off1 k) S1x3x16x128.size (k0_off1_inb k)).toLoadRect (harg2.unread X) (ix4 0 j h d)
          = X (ix4 0 ⟨256 * k.val + 256 - 3 + j.val, by have := j.isLt; omega⟩ h d) :=
      fun j h d => (read_rows (R := 3) arg2 harg2 X (k0_off1 k) (256 * k.val + 253) (k0_off1_eq k) (k0_off1_inb k) j h d (by have := j.isLt; omega)).trans
        (congrArg X (ix4_row_congr _ _ _ _ (by omega) h d))
    refine agree_step arg5 _ (256 * k.val + 256) f hf (k0_off3 k) (k0_off4 k) (256 * k.val + 259) (by omega) (k0_off3_eq k) (k0_off4_eq k) _ _ _ _ ?_ ?_
    · intro r h d hr
      exact piece_rows X Hh Wt _ _ hW (256 * k.val + 256) (by omega) _ hv r h d
    · intro r h d hr
      exact piece_edge X Hh Wt _ _ hW (256 * k.val + 256) (by omega) (by omega) _ _ hu hv r h d
  · unfold loopI
    isplitl [H2]; · iexact H2
    iexists _
    isplitl [H5]; · iexact H5
    ipureintro
    show AgreeBelow arg5 _ (0 + 256) _
    unfold bodyRun.sl.r_1 bodyRun.sl.r
    have hW := fun (q : Fin 4) (h : Fin 16) (d : Fin 128) => read_filter arg4 harg4 Wt inb_S4x16x128_S4x16x128_0_0_0 q h d
    have hv : ∀ (r : Fin 256) (h : Fin 16) (d : Fin 128),
        View.readAt (Elt F) arg2.view (Rect.unit (s := S1x1024x16x128) ![0, 0, 0, 0] S1x256x16x128.size inb_S1x1024x16x128_S1x256x16x128_0_0_0_0).toLoadRect (harg2.unread X) (ix4 0 r h d)
          = X (ix4 0 ⟨r.val, by have := r.isLt; omega⟩ h d) :=
      fun r h d => (read_rows (R := 256) arg2 harg2 X ![0, 0, 0, 0] 0 rfl inb_S1x1024x16x128_S1x256x16x128_0_0_0_0 r h d (by have := r.isLt; omega)).trans
        (congrArg X (ix4_row_congr _ _ _ _ (by omega) h d))
    have hu := fun (j : Fin 3) (h : Fin 16) (d : Fin 128) => read_halo arg3 harg3 Hh inb_S1x8x16x128_S1x3x16x128_0_5_0_0 j h d
    refine agree_step arg5 _ 0 f5 (fun y hy => absurd hy (Nat.not_lt_zero _)) ![0, 3, 0, 0] ![0, 0, 0, 0] 3 rfl rfl rfl _ _ _ _ ?_ ?_
    · intro r h d hr
      exact (piece_rows0 X Hh Wt _ _ hW _ hv r h d).trans (congrArg _ (ix4_row_congr _ _ _ _ (by omega) h d))
    · intro r h d hr
      exact (piece_edge0 X Hh Wt i _ hW _ _ hu hv r h d).trans (congrArg _ (ix4_row_congr _ _ _ _ (by omega) h d))
  · iintro %acc HI
    sl_exec
    sl_step
    unfold loopI
    icases HI with ⟨H2, ⟨%f, H5, %hf⟩⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    iexists _; isplitr
    swap; · iexact H5
    ipureintro
    rw [trips_eq] at hf
    exact agree_all arg5 _ f hf

end Cert.Kernel.Hand

end
-- ==== Proof.K.Run.lean ====
/-
  The pipeline's proof data and its run, for every float instance.

  The grid has sixteen points (batch × four blocks of 1024 positions). At a point the body is handed the block of
  1024 positions of x, the eight positions of x just before the block, and the whole filter; it leaves in the output
  block the convolution of that block (`convBlk`, stated in Spec.lean). The input x is read through two windows, so
  its buffer is held half by each; the filter's and the result's buffers are held whole.
-/
import proofs.«164929_j54657753809306_2_alg».proof.Proof.K.Body

set_option maxRecDepth 16384

noncomputable section

namespace Cert.Kernel.Hand

open Cert.Kernel Cert.Kernel.Gen Cert.Conv4
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whether point `t`'s block starts the sequence, as the body computes it. -/
def zAt (t : Fin cfg0.N) : BitVec 1 := Scalar.cmpi .eq (BitVec.ofNat 32 ((grid0.coords t) 1).val) 0#32

/-- What the body leaves in the output block at point `t`: the convolution of the point's blocks. -/
def outAt (c : Dev nD) (t : Fin cfg0.N) : Vec F S1x1024x16x128 .f32 :=
  convBlk (iblk m c 0 t) (iblk m c 1 t) (iblk m c 2 t) (zAt t)

/-- The proof data: the arrays as launched; each input's buffer left at its block, the output's at the block's
    convolution; nothing kept between points; the two windows on x hold half of its buffer each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

abbrev ms0_0 (t : Fin cfg0.N) : Memref sig .tc .vmem S1x1024x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x16x128 .f32 := win0_3.stage (cfg0.slots t 3)
abbrev hs0_3 (t : Fin cfg0.N) : (ms0_3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outAt zAt
  iintro ⟨HΦ, Ho, ⟨%d0, H0⟩, ⟨%d1, H1⟩, ⟨%d2, H2⟩, ⟨%d3, H3⟩⟩
  iapply (bodyRun c (grid0.coords t) _ (hs0_0 t) _ (hs0_1 t) _ (hs0_2 t) _ (hs0_3 t) (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The buffers behind the arrays, each held whole, are the windows' holdings: x's buffer halved between its two
    windows. -/
theorem arrays_split (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e : (bigSep ({main_arg0, main_arg1, main_v0} : Finset (Ref sig .tc)) fun b => (((c : Thread nD τ).loc b) ↦{fullShare} V m c b : sProp 𝕄))
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) := by
    rw [bigSep_insert (by decide), bigSep_insert (by decide), bigSep_singleton]; rfl
  have ea : (dats m 0 c).arrays (fun w => (dats m 0 c).arrAt w 0)
      = bigSep Finset.univ fun w : Fin cfg0.W => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  unfold Pipeline.arrBufs
  rw [ea, show Finset.univ.image (Pipeline.arrRef spec0) = {main_arg0, main_arg1, main_v0} from by decide, e, bigSep_W0]
  iintro ⟨H0, H1, H2⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  iexact H2

-- the launch theorem's implicit arguments are found by unifying its conclusion with this one
set_option backward.isDefEq.respectTransparency.types false in
/-- Every weakly fair execution of the program terminates, and at the end every array of the pipeline holds what the
    proof data compute: the inputs their launch contents, the result its launch contents overwritten block by block. -/
theorem run_main : θ_run defs (onTc (τ := τ) (main (F := F))) (s₀ m ρ) (fun r => ∀ c : Dev nD, ∀ w : Fin cfg0.W,
      r.2.mem (((cfg0).spec w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_split m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The arguments end unchanged -/

/-- The first argument is read through windows 0 and 1 and never written back. -/
theorem kept_arg0 (r : PUnit × MemSt nD τ sig (Elt F))
    (h : ∀ c : Dev nD, ∀ w : Fin cfg0.W, r.2.mem (((cfg0).spec w).arr.view.loc (c : Thread nD τ)) = (dats m 0 c).arrAt w cfg0.N) (c : Dev nD) :
    r.2.mem ((c : Thread nD τ).loc main_arg0) = m ((c : Thread nD τ).loc main_arg0) :=
  (h c 0).trans (((dats m 0 c).arrAt_in 0 rfl _).trans (A_eq m c 0))

/-- The second argument is read through window 2 and never written back. -/
theorem kept_arg1 (r : PUnit × MemSt nD τ sig (Elt F))
    (h : ∀ c : Dev nD, ∀ w : Fin cfg0.W, r.2.mem (((cfg0).spec w).arr.view.loc (c : Thread nD τ)) = (dats m 0 c).arrAt w cfg0.N) (c : Dev nD) :
    r.2.mem ((c : Thread nD τ).loc main_arg1) = m ((c : Thread nD τ).loc main_arg1) :=
  (h c 2).trans (((dats m 0 c).arrAt_in 2 rfl _).trans (A_eq m c 2))

/-- The program runs to the end, faults nowhere and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.Kernel.Hand

end
-- ==== Proof.KI.Taps.lean ====
/-
  The kernel's stored values read at one index.

  Each value the kernel stores is a chain of layout operations (slices, shape casts, broadcasts, a concatenation)
  around four products and three sums. Read at an index given by its coordinates (row, head, channel), such a value is
  the four-tap combination of the spec, comb, of four rows of the loaded block and the four filter rows at that
  head and channel. The lemmas below say so for every float instance: first each layout operation read at an index,
  then each stored value.
-/
import proofs.«164929_j54657753809306_2_alg».proof.Proof.Gen.KernelIdeal.Skeleton
import proofs.«164929_j54657753809306_2_alg».proof.Proof.Spec
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Conv4

variable {F : FTy → Type} [FloatOps F]

/-! ## Layout operations read at an index -/

section Layout
variable {α : Type}

/-- A rank-3 array cut along its first axis from row o reads, at (j, b, c), the source at (j + o, b, c). -/
theorem slice3_axis0 {n m n1 n2 : Nat} (o : Nat) (X : (⟨3, ![n, n1, n2]⟩ : Shape).Idx → α)
    (hs : (⟨3, ![n, n1, n2]⟩ : Shape).Slices ![o, 0, 0] ⟨3, ![m, n1, n2]⟩)
    (j : Fin m) (b : Fin n1) (c : Fin n2) (k : Fin n) (hk : k.val = j.val + o) :
    extractStridedSlice ⟨3, ![m, n1, n2]⟩ ![o, 0, 0] X hs (ix3 j b c) = X (ix3 k b c) :=
  extractStridedSlice_apply _ _ _ _ _ (fun ax => by
    match ax with
    | ⟨0, _⟩ => exact hk.trans (Nat.add_comm _ _)
    | ⟨1, _⟩ => exact (Nat.zero_add _).symm
    | ⟨2, _⟩ => exact (Nat.zero_add _).symm)

/-- Rows o, o + 1, … of a block [1, n, 16, 128] viewed as [n, 16, 128]: at (r, h, d), the block at (0, r + o, h, d). -/
theorem row_apply {n m : Nat} (o : Nat) (v : (⟨4, ![1, n, 16, 128]⟩ : Shape).Idx → α)
    (hc : (⟨4, ![1, n, 16, 128]⟩ : Shape).ShapeCasts ⟨3, ![n, 16, 128]⟩)
    (hs : (⟨3, ![n, 16, 128]⟩ : Shape).Slices ![o, 0, 0] ⟨3, ![m, 16, 128]⟩)
    (r : Fin m) (h : Fin 16) (d : Fin 128) (k : Fin n) (hk : k.val = r.val + o) :
    extractStridedSlice ⟨3, ![m, 16, 128]⟩ ![o, 0, 0] (shapeCast ⟨3, ![n, 16, 128]⟩ v hc) hs (ix3 r h d)
      = v (ix4 (0 : Fin 1) k h d) :=
  (slice3_axis0 o _ hs r h d k hk).trans (shapeCast_1abc_abc_apply v hc k h d)

/-- Filter row o, cut out of the four, flattened, given back its unit axis and repeated over n rows: at (r, h, d),
    the filter at (o, h, d). -/
theorem wrow_apply {n : Nat} (o : Nat) (v0 : S4x16x128.Idx → α)
    (hs : S4x16x128.Slices ![o, 0, 0] S1x16x128) (hc1 : S1x16x128.ShapeCasts S16x128)
    (hc2 : S16x128.ShapeCasts S1x16x128) (hb : S1x16x128.Broadcasts ⟨3, ![n, 16, 128]⟩)
    (r : Fin n) (h : Fin 16) (d : Fin 128) (k : Fin 4) (hk : k.val = o) :
    broadcastTo ⟨3, ![n, 16, 128]⟩
        (shapeCast S1x16x128 (shapeCast S16x128 (extractStridedSlice S1x16x128 ![o, 0, 0] v0 hs) hc1) hc2) hb (ix3 r h d)
      = v0 (ix3 k h d) := by
  refine (broadcastTo_apply _ hb (ix3 r h d) (ix3 (0 : Fin 1) h d) (fun a => ?_)).trans ?_
  · match a with
    | ⟨0, _⟩ => rfl
    | ⟨1, _⟩ => rfl
    | ⟨2, _⟩ => rfl
  refine (shapeCast_ab_1ab_apply _ hc2 0 h d).trans ?_
  refine (shapeCast_1ab_ab_apply _ hc1 h d).trans ?_
  exact slice3_axis0 o v0 hs 0 h d k (hk.trans (Nat.zero_add o).symm)

/-- A choice between two arrays on one bit, read at an index, is the choice between their elements. -/
theorem select_fn_apply {ι : Type} (c : BitVec 1) (a b : ι → α) (i : ι) :
    (Scalar.select c a b) i = Scalar.select c (a i) (b i) := by
  unfold Scalar.select
  split <;> rfl

end Layout

/-! ## The stored values read at an index -/

/-- The first 253 output rows of the first 256-row chunk: row r + 3 of the chunk and the three rows before it. -/
theorem pay9_apply (v0 : Vec F S4x16x128 .f32) (v6 : Vec F S1x256x16x128 .f32) (r : Fin 253) (h : Fin 16) (d : Fin 128) :
    k0_pay9 v0 v6 (ix4 0 r h d)
      = comb (v6 (ix4 0 ⟨r.val + 3, by have := r.isLt; omega⟩ h d)) (v6 (ix4 0 ⟨r.val + 2, by have := r.isLt; omega⟩ h d))
          (v6 (ix4 0 ⟨r.val + 1, by have := r.isLt; omega⟩ h d)) (v6 (ix4 0 ⟨r.val, by have := r.isLt; omega⟩ h d))
          (v0 (ix3 0 h d)) (v0 (ix3 1 h d)) (v0 (ix3 2 h d)) (v0 (ix3 3 h d)) := by
  unfold k0_pay9 k0_pay8
  refine (shapeCast_abc_1abc_apply _ _ 0 r h d).trans ?_
  exact congrArg₂ FloatOps.addf (congrArg₂ FloatOps.addf (congrArg₂ FloatOps.addf
      (congrArg₂ FloatOps.mulf (row_apply 3 v6 _ _ r h d _ rfl) (wrow_apply 0 v0 _ _ _ _ r h d 0 rfl))
      (congrArg₂ FloatOps.mulf (row_apply 2 v6 _ _ r h d _ rfl) (wrow_apply 1 v0 _ _ _ _ r h d 1 rfl)))
      (congrArg₂ FloatOps.mulf (row_apply 1 v6 _ _ r h d _ rfl) (wrow_apply 2 v0 _ _ _ _ r h d 2 rfl)))
      (congrArg₂ FloatOps.mulf (row_apply 0 v6 _ _ r h d _ rfl) (wrow_apply 3 v0 _ _ _ _ r h d 3 rfl))

/-- The first 253 output rows of a later 256-row chunk: the same combination, of that chunk's rows. -/
theorem pay4_apply (v0 : Vec F S4x16x128 .f32) (v78 : Vec F S1x256x16x128 .f32) (r : Fin 253) (h : Fin 16) (d : Fin 128) :
    k0_pay4 v0 v78 (ix4 0 r h d)
      = comb (v78 (ix4 0 ⟨r.val + 3, by have := r.isLt; omega⟩ h d)) (v78 (ix4 0 ⟨r.val + 2, by have := r.isLt; omega⟩ h d))
          (v78 (ix4 0 ⟨r.val + 1, by have := r.isLt; omega⟩ h d)) (v78 (ix4 0 ⟨r.val, by have := r.isLt; omega⟩ h d))
          (v0 (ix3 0 h d)) (v0 (ix3 1 h d)) (v0 (ix3 2 h d)) (v0 (ix3 3 h d)) := by
  unfold k0_pay4 k0_pay3
  refine (shapeCast_abc_1abc_apply _ _ 0 r h d).trans ?_
  exact congrArg₂ FloatOps.addf (congrArg₂ FloatOps.addf (congrArg₂ FloatOps.addf
      (congrArg₂ FloatOps.mulf (row_apply 3 v78 _ _ r h d _ rfl) (wrow_apply 0 v0 _ _ _ _ r h d 0 rfl))
      (congrArg₂ FloatOps.mulf (row_apply 2 v78 _ _ r h d _ rfl) (wrow_apply 1 v0 _ _ _ _ r h d 1 rfl)))
      (congrArg₂ FloatOps.mulf (row_apply 1 v78 _ _ r h d _ rfl) (wrow_apply 2 v0 _ _ _ _ r h d 2 rfl)))
      (congrArg₂ FloatOps.mulf (row_apply 0 v78 _ _ r h d _ rfl) (wrow_apply 3 v0 _ _ _ _ r h d 3 rfl))

/-- The six rows around the start of the first chunk: three rows carried in from before the block (zeros when the block
    starts the sequence), then the chunk's first three rows. -/
theorem pay10_apply (i : grid0.Coords) (v1 : Vec F S1x3x16x128 .f32) (v6 : Vec F S1x256x16x128 .f32)
    (j : Fin 6) (h : Fin 16) (d : Fin 128) :
    k0_pay10 i v1 v6 (ix3 j h d)
      = if hj : j.val < 3 then
          Scalar.select (Scalar.cmpi .eq (BitVec.ofNat 32 (i 1).val) 0#32) (zero (F := F)) (v1 (ix4 0 ⟨j.val, hj⟩ h d))
        else v6 (ix4 0 ⟨j.val - 3, by have := j.isLt; omega⟩ h d) := by
  unfold k0_pay10 k0_pay8
  by_cases hj : j.val < 3
  · rw [dif_pos hj]
    refine (concatenate_pair_apply_left (t := S6x16x128) (s₁ := S3x16x128) (s₂ := S3x16x128) 0 _ _ _ (ix3 j h d) rfl
      (ix3 ⟨j.val, hj⟩ h d) (fun b => ?_)).trans ?_
    · match b with
      | ⟨0, _⟩ => rfl
      | ⟨1, _⟩ => rfl
      | ⟨2, _⟩ => rfl
    refine (select_fn_apply _ _ _ _).trans ?_
    exact congrArg (Scalar.select _ _) (shapeCast_1abc_abc_apply v1 _ ⟨j.val, hj⟩ h d)
  · rw [dif_neg hj]
    have hj3 : j.val - 3 < 3 := by have := j.isLt; omega
    refine (concatenate_pair_apply_right (t := S6x16x128) (s₁ := S3x16x128) (s₂ := S3x16x128) 0 _ _ _ (ix3 j h d) rfl rfl
      (ix3 ⟨j.val - 3, hj3⟩ h d) (fun b hb => ?_) ?_).trans ?_
    · match b with
      | ⟨0, _⟩ => exact absurd rfl hb
      | ⟨1, _⟩ => rfl
      | ⟨2, _⟩ => rfl
    · show j.val - 3 + 3 = j.val
      omega
    exact row_apply 0 v6 _ _ ⟨j.val - 3, hj3⟩ h d _ rfl

/-- The six rows around the start of a later chunk: the three rows before it, then its first three rows. -/
theorem pay5_apply (v75 : Vec F S1x3x16x128 .f32) (v78 : Vec F S1x256x16x128 .f32) (j : Fin 6) (h : Fin 16) (d : Fin 128) :
    k0_pay5 v75 v78 (ix3 j h d)
      = if hj : j.val < 3 then v75 (ix4 0 ⟨j.val, hj⟩ h d)
        else v78 (ix4 0 ⟨j.val - 3, by have := j.isLt; omega⟩ h d) := by
  unfold k0_pay5 k0_pay3
  by_cases hj : j.val < 3
  · rw [dif_pos hj]
    refine (concatenate_pair_apply_left (t := S6x16x128) (s₁ := S3x16x128) (s₂ := S3x16x128) 0 _ _ _ (ix3 j h d) rfl
      (ix3 ⟨j.val, hj⟩ h d) (fun b => ?_)).trans ?_
    · match b with
      | ⟨0, _⟩ => rfl
      | ⟨1, _⟩ => rfl
      | ⟨2, _⟩ => rfl
    exact shapeCast_1abc_abc_apply v75 _ ⟨j.val, hj⟩ h d
  · rw [dif_neg hj]
    have hj3 : j.val - 3 < 3 := by have := j.isLt; omega
    refine (concatenate_pair_apply_right (t := S6x16x128) (s₁ := S3x16x128) (s₂ := S3x16x128) 0 _ _ _ (ix3 j h d) rfl rfl
      (ix3 ⟨j.val - 3, hj3⟩ h d) (fun b hb => ?_) ?_).trans ?_
    · match b with
      | ⟨0, _⟩ => exact absurd rfl hb
      | ⟨1, _⟩ => rfl
      | ⟨2, _⟩ => rfl
    · show j.val - 3 + 3 = j.val
      omega
    exact row_apply 0 v78 _ _ ⟨j.val - 3, hj3⟩ h d _ rfl

/-- The first three output rows of the first chunk, from the six rows around its start. -/
theorem pay1_apply (v0 : Vec F S4x16x128 .f32) (v39 : FVec F S6x16x128 .f32) (r : Fin 3) (h : Fin 16) (d : Fin 128) :
    k0_pay1 v0 v39 (ix4 0 r h d)
      = comb (v39 (ix3 ⟨r.val + 3, by have := r.isLt; omega⟩ h d)) (v39 (ix3 ⟨r.val + 2, by have := r.isLt; omega⟩ h d))
          (v39 (ix3 ⟨r.val + 1, by have := r.isLt; omega⟩ h d)) (v39 (ix3 ⟨r.val, by have := r.isLt; omega⟩ h d))
          (v0 (ix3 0 h d)) (v0 (ix3 1 h d)) (v0 (ix3 2 h d)) (v0 (ix3 3 h d)) := by
  unfold k0_pay1
  refine (shapeCast_abc_1abc_apply _ _ 0 r h d).trans ?_
  exact congrArg₂ FloatOps.addf (congrArg₂ FloatOps.addf (congrArg₂ FloatOps.addf
      (congrArg₂ FloatOps.mulf (slice3_axis0 3 v39 _ r h d _ rfl) (wrow_apply 0 v0 _ _ _ _ r h d 0 rfl))
      (congrArg₂ FloatOps.mulf (slice3_axis0 2 v39 _ r h d _ rfl) (wrow_apply 1 v0 _ _ _ _ r h d 1 rfl)))
      (congrArg₂ FloatOps.mulf (slice3_axis0 1 v39 _ r h d _ rfl) (wrow_apply 2 v0 _ _ _ _ r h d 2 rfl)))
      (congrArg₂ FloatOps.mulf (slice3_axis0 0 v39 _ r h d _ rfl) (wrow_apply 3 v0 _ _ _ _ r h d 3 rfl))

/-- The first three output rows of a later chunk, over any six rows around its start, with the first product's two
    factors (the rows from the fourth on, and the first filter row flattened) passed in as the loop passes them. -/
theorem pay2_core (v0 : Vec F S4x16x128 .f32) (v113 : FVec F S6x16x128 .f32)
    (hs : S6x16x128.Slices ![3, 0, 0] S3x16x128) (hs0 : S4x16x128.Slices ![0, 0, 0] S1x16x128)
    (hc : S1x16x128.ShapeCasts S16x128) (r : Fin 3) (h : Fin 16) (d : Fin 128) :
    k0_pay2 v0 v113 (extractStridedSlice S3x16x128 ![3, 0, 0] v113 hs)
        (shapeCast S16x128 (extractStridedSlice S1x16x128 ![0, 0, 0] v0 hs0) hc) (ix4 0 r h d)
      = comb (v113 (ix3 ⟨r.val + 3, by have := r.isLt; omega⟩ h d)) (v113 (ix3 ⟨r.val + 2, by have := r.isLt; omega⟩ h d))
          (v113 (ix3 ⟨r.val + 1, by have := r.isLt; omega⟩ h d)) (v113 (ix3 ⟨r.val, by have := r.isLt; omega⟩ h d))
          (v0 (ix3 0 h d)) (v0 (ix3 1 h d)) (v0 (ix3 2 h d)) (v0 (ix3 3 h d)) := by
  unfold k0_pay2
  refine (shapeCast_abc_1abc_apply _ _ 0 r h d).trans ?_
  exact congrArg₂ FloatOps.addf (congrArg₂ FloatOps.addf (congrArg₂ FloatOps.addf
      (congrArg₂ FloatOps.mulf (slice3_axis0 3 v113 _ r h d _ rfl) (wrow_apply 0 v0 _ _ _ _ r h d 0 rfl))
      (congrArg₂ FloatOps.mulf (slice3_axis0 2 v113 _ r h d _ rfl) (wrow_apply 1 v0 _ _ _ _ r h d 1 rfl)))
      (congrArg₂ FloatOps.mulf (slice3_axis0 1 v113 _ r h d _ rfl) (wrow_apply 2 v0 _ _ _ _ r h d 2 rfl)))
      (congrArg₂ FloatOps.mulf (slice3_axis0 0 v113 _ r h d _ rfl) (wrow_apply 3 v0 _ _ _ _ r h d 3 rfl))

/-- The first three output rows of a later chunk, as the loop computes them from the six rows around the chunk's start. -/
theorem pay2_apply (v0 : Vec F S4x16x128 .f32) (v75 : Vec F S1x3x16x128 .f32) (v78 : Vec F S1x256x16x128 .f32)
    (r : Fin 3) (h : Fin 16) (d : Fin 128) :
    k0_pay2 v0 (k0_pay5 v75 v78) (k0_pay6 v75 v78) (k0_pay7 v0) (ix4 0 r h d)
      = comb (k0_pay5 v75 v78 (ix3 ⟨r.val + 3, by have := r.isLt; omega⟩ h d))
          (k0_pay5 v75 v78 (ix3 ⟨r.val + 2, by have := r.isLt; omega⟩ h d))
          (k0_pay5 v75 v78 (ix3 ⟨r.val + 1, by have := r.isLt; omega⟩ h d))
          (k0_pay5 v75 v78 (ix3 ⟨r.val, by have := r.isLt; omega⟩ h d))
          (v0 (ix3 0 h d)) (v0 (ix3 1 h d)) (v0 (ix3 2 h d)) (v0 (ix3 3 h d)) := by
  unfold k0_pay6 k0_pay7
  exact pay2_core v0 (k0_pay5 v75 v78) _ _ _ r h d

end Cert.KernelIdeal.Hand

end
-- ==== Proof.KI.Pieces.lean ====
/-
  Each store of the body writes the convolution: the payload of every store, read at an index of its rectangle, is
  the block's convolution `convBlk` at the row the rectangle places that index on.

  A chunk of 256 rows starting at row `n` of the block is written by two stores. Rows `n + 3 … n + 255` need only the
  chunk's own rows. Rows `n … n + 2` also need the three rows before the chunk: rows `n - 3 … n - 1` of the block when
  `n ≥ 3`, and for the first chunk the last three of the eight positions before the block, or zeros when the block
  starts the sequence.
-/
import proofs.«164929_j54657753809306_2_alg».proof.Proof.Gen.KernelIdeal.Skeleton
import proofs.«164929_j54657753809306_2_alg».proof.Proof.Spec
import proofs.«164929_j54657753809306_2_alg».proof.Proof.KI.Taps

import Idealize.ShloMosaic.Lib.ValueIdx

noncomputable section

namespace Cert.KernelIdeal.Hand

open Cert.KernelIdeal Cert.KernelIdeal.Gen Cert.Conv4
open Idealize.ShloMosaic Idealize.ShloMosaic.ValueIdx

variable {F : FTy → Type} [FloatOps F]

variable (X : Vec F S1x1024x16x128 .f32) (Hh : Vec F S1x8x16x128 .f32) (Wt : Vec F S4x16x128 .f32)

/-! ## Reading the block form -/

/-- The four taps combined, when the taps and the filter entries agree one by one. -/
theorem comb_congr {a0 a1 a2 a3 w0 w1 w2 w3 b0 b1 b2 b3 u0 u1 u2 u3 : F .f32}
    (h0 : a0 = b0) (h1 : a1 = b1) (h2 : a2 = b2) (h3 : a3 = b3) (g0 : w0 = u0) (g1 : w1 = u1) (g2 : w2 = u2) (g3 : w3 = u3) :
    comb a0 a1 a2 a3 w0 w1 w2 w3 = comb b0 b1 b2 b3 u0 u1 u2 u3 := by
  subst h0 h1 h2 h3 g0 g1 g2 g3; rfl

/-- The block's convolution at row `R`: the four taps at that row and the four filter entries, combined. -/
theorem convBlk_ix4 (z : BitVec 1) (R : Fin 1024) (h : Fin 16) (d : Fin 128) :
    convBlk X Hh Wt z (ix4 0 R h d)
      = comb (tapBlk X Hh z R h d 0) (tapBlk X Hh z R h d 1) (tapBlk X Hh z R h d 2) (tapBlk X Hh z R h d 3)
          (Wt (ix3 0 h d)) (Wt (ix3 1 h d)) (Wt (ix3 2 h d)) (Wt (ix3 3 h d)) := rfl

/-- A tap that stays inside the block is the block's row that many rows up. -/
theorem tapBlk_in (z : BitVec 1) (R : Fin 1024) (h : Fin 16) (d : Fin 128) (k : ℕ) (hk : k ≤ R.val)
    (m : Fin 1024) (hm : m.val = R.val - k) : tapBlk X Hh z R h d k = X (ix4 0 m h d) := by
  unfold tapBlk
  rw [dif_pos hk]
  exact congrArg X (congrArg (fun s => ix4 0 s h d) (Fin.ext hm.symm))

/-- A tap that leaves the block reads the eight positions before it, or zero when the block starts the sequence. -/
theorem tapBlk_out (z : BitVec 1) (R : Fin 1024) (h : Fin 16) (d : Fin 128) (k : ℕ) (hk : ¬ k ≤ R.val)
    (q : Fin 8) (hq : q.val = 8 + R.val - k) :
    tapBlk X Hh z R h d k = Scalar.select z (zero (F := F)) (Hh (ix4 0 q h d)) := by
  unfold tapBlk
  rw [dif_neg hk]
  exact congrArg (fun s => Scalar.select z (zero (F := F)) (Hh (ix4 0 s h d))) (Fin.ext hq.symm)

/-- Of the six rows around the start of a later chunk (three before it, then its first three), row `j` is row
    `n - 3 + j` of the block. -/
theorem pay5_row (n : ℕ) (hn3 : 3 ≤ n) (hn : n + 256 ≤ 1024) (u : Vec F S1x3x16x128 .f32) (v : Vec F S1x256x16x128 .f32)
    (hu : ∀ (j : Fin 3) (h : Fin 16) (d : Fin 128), u (ix4 0 j h d) = X (ix4 0 ⟨n - 3 + j.val, by have := j.isLt; omega⟩ h d))
    (hv : ∀ (r : Fin 256) (h : Fin 16) (d : Fin 128), v (ix4 0 r h d) = X (ix4 0 ⟨n + r.val, by have := r.isLt; omega⟩ h d))
    (j : Fin 6) (h : Fin 16) (d : Fin 128) (m : Fin 1024) (hm : m.val + 3 = n + j.val) :
    k0_pay5 u v (ix3 j h d) = X (ix4 0 m h d) := by
  have hj6 : j.val < 6 := j.isLt
  rw [pay5_apply]
  by_cases hj : j.val < 3
  · rw [dif_pos hj, hu]
    exact congrArg X (congrArg (fun s => ix4 0 s h d) (Fin.ext (by show n - 3 + j.val = m.val; omega)))
  · rw [dif_neg hj, hv]
    exact congrArg X (congrArg (fun s => ix4 0 s h d) (Fin.ext (by show n + (j.val - 3) = m.val; omega)))

/-- Of the six rows around the start of the block (the last three of the eight positions before it, or zeros, then its
    first three), row `r + 3 - k` is the tap `k` of the block's row `r`. -/
theorem pay10_row (i : grid0.Coords) (u : Vec F S1x3x16x128 .f32) (v : Vec F S1x256x16x128 .f32)
    (hu : ∀ (j : Fin 3) (h : Fin 16) (d : Fin 128), u (ix4 0 j h d) = Hh (ix4 0 ⟨5 + j.val, by have := j.isLt; omega⟩ h d))
    (hv : ∀ (r : Fin 256) (h : Fin 16) (d : Fin 128), v (ix4 0 r h d) = X (ix4 0 ⟨r.val, by have := r.isLt; omega⟩ h d))
    (r : Fin 3) (k : ℕ) (hk : k ≤ 3) (j : Fin 6) (hj : j.val + k = r.val + 3) (h : Fin 16) (d : Fin 128) :
    k0_pay10 i u v (ix3 j h d)
      = tapBlk X Hh (Scalar.cmpi .eq (BitVec.ofNat 32 (i 1).val) 0#32) ⟨r.val, by have := r.isLt; omega⟩ h d k := by
  have hr : r.val < 3 := r.isLt
  rw [pay10_apply]
  by_cases hj3 : j.val < 3
  · rw [dif_pos hj3, hu]
    exact (tapBlk_out X Hh _ _ h d k (by show ¬ k ≤ r.val; omega) _ (by show 5 + j.val = 8 + r.val - k; omega)).symm
  · rw [dif_neg hj3, hv]
    exact (tapBlk_in X Hh _ _ h d k (by show k ≤ r.val; omega) _ (by show j.val - 3 = r.val - k; omega)).symm

/-- Rows `n + 3 … n + 255` of a chunk starting at row `n`: computed from the chunk's own 256 rows. -/
theorem piece_rows (z : BitVec 1) (W' : Vec F S4x16x128 .f32) (hW : ∀ (k : Fin 4) (h : Fin 16) (d : Fin 128), W' (ix3 k h d) = Wt (ix3 k h d))
    (n : ℕ) (hn : n + 256 ≤ 1024) (v : Vec F S1x256x16x128 .f32)
    (hv : ∀ (r : Fin 256) (h : Fin 16) (d : Fin 128), v (ix4 0 r h d) = X (ix4 0 ⟨n + r.val, by have := r.isLt; omega⟩ h d))
    (r : Fin 253) (h : Fin 16) (d : Fin 128) :
    k0_pay4 W' v (ix4 0 r h d) = convBlk X Hh Wt z (ix4 0 ⟨n + 3 + r.val, by have := r.isLt; omega⟩ h d) := by
  rw [pay4_apply, convBlk_ix4]
  have hr : r.val < 253 := r.isLt
  exact comb_congr
    ((hv _ h d).trans (tapBlk_in X Hh z _ h d 0 (Nat.zero_le _) _ (by show n + (r.val + 3) = n + 3 + r.val - 0; omega)).symm)
    ((hv _ h d).trans (tapBlk_in X Hh z _ h d 1 (by show 1 ≤ n + 3 + r.val; omega) _ (by show n + (r.val + 2) = n + 3 + r.val - 1; omega)).symm)
    ((hv _ h d).trans (tapBlk_in X Hh z _ h d 2 (by show 2 ≤ n + 3 + r.val; omega) _ (by show n + (r.val + 1) = n + 3 + r.val - 2; omega)).symm)
    ((hv _ h d).trans (tapBlk_in X Hh z _ h d 3 (by show 3 ≤ n + 3 + r.val; omega) _ (by show n + (r.val) = n + 3 + r.val - 3; omega)).symm)
    (hW 0 h d) (hW 1 h d) (hW 2 h d) (hW 3 h d)

/-- The same for the first chunk's store (the same arithmetic, printed a second time). -/
theorem piece_rows0 (z : BitVec 1) (W' : Vec F S4x16x128 .f32) (hW : ∀ (k : Fin 4) (h : Fin 16) (d : Fin 128), W' (ix3 k h d) = Wt (ix3 k h d))
    (v : Vec F S1x256x16x128 .f32)
    (hv : ∀ (r : Fin 256) (h : Fin 16) (d : Fin 128), v (ix4 0 r h d) = X (ix4 0 ⟨r.val, by have := r.isLt; omega⟩ h d))
    (r : Fin 253) (h : Fin 16) (d : Fin 128) :
    k0_pay9 W' v (ix4 0 r h d) = convBlk X Hh Wt z (ix4 0 ⟨3 + r.val, by have := r.isLt; omega⟩ h d) := by
  rw [pay9_apply, convBlk_ix4]
  have hr : r.val < 253 := r.isLt
  exact comb_congr
    ((hv _ h d).trans (tapBlk_in X Hh z _ h d 0 (Nat.zero_le _) _ (by show r.val + 3 = 3 + r.val - 0; omega)).symm)
    ((hv _ h d).trans (tapBlk_in X Hh z _ h d 1 (by show 1 ≤ 3 + r.val; omega) _ (by show r.val + 2 = 3 + r.val - 1; omega)).symm)
    ((hv _ h d).trans (tapBlk_in X Hh z _ h d 2 (by show 2 ≤ 3 + r.val; omega) _ (by show r.val + 1 = 3 + r.val - 2; omega)).symm)
    ((hv _ h d).trans (tapBlk_in X Hh z _ h d 3 (by show 3 ≤ 3 + r.val; omega) _ (by show r.val = 3 + r.val - 3; omega)).symm)
    (hW 0 h d) (hW 1 h d) (hW 2 h d) (hW 3 h d)

/-- Rows `n … n + 2` of a later chunk (`n ≥ 3`): from the three rows before the chunk and the chunk's first three. -/
theorem piece_edge (z : BitVec 1) (W' : Vec F S4x16x128 .f32) (hW : ∀ (k : Fin 4) (h : Fin 16) (d : Fin 128), W' (ix3 k h d) = Wt (ix3 k h d))
    (n : ℕ) (hn3 : 3 ≤ n) (hn : n + 256 ≤ 1024) (u : Vec F S1x3x16x128 .f32) (v : Vec F S1x256x16x128 .f32)
    (hu : ∀ (j : Fin 3) (h : Fin 16) (d : Fin 128), u (ix4 0 j h d) = X (ix4 0 ⟨n - 3 + j.val, by have := j.isLt; omega⟩ h d))
    (hv : ∀ (r : Fin 256) (h : Fin 16) (d : Fin 128), v (ix4 0 r h d) = X (ix4 0 ⟨n + r.val, by have := r.isLt; omega⟩ h d))
    (r : Fin 3) (h : Fin 16) (d : Fin 128) :
    k0_pay2 W' (k0_pay5 u v) (k0_pay6 u v) (k0_pay7 W') (ix4 0 r h d)
      = convBlk X Hh Wt z (ix4 0 ⟨n + r.val, by have := r.isLt; omega⟩ h d) := by
  rw [pay2_apply, convBlk_ix4]
  have hr : r.val < 3 := r.isLt
  have e : ∀ (k : ℕ) (hk : k ≤ 3) (j : Fin 6) (hj : j.val + k = r.val + 3),
      k0_pay5 u v (ix3 j h d) = tapBlk X Hh z ⟨n + r.val, by omega⟩ h d k := fun k hk j hj =>
    (pay5_row X n hn3 hn u v hu hv j h d ⟨n + r.val - k, by omega⟩ (by show n + r.val - k + 3 = n + j.val; omega)).trans
      (tapBlk_in X Hh z _ h d k (by show k ≤ n + r.val; omega) _ rfl).symm
  exact comb_congr (e 0 (by omega) _ (by show r.val + 3 + 0 = r.val + 3; omega))
    (e 1 (by omega) _ (by show r.val + 2 + 1 = r.val + 3; omega))
    (e 2 (by omega) _ (by show r.val + 1 + 2 = r.val + 3; omega))
    (e 3 (by omega) _ (by show r.val + 3 = r.val + 3; omega))
    (hW 0 h d) (hW 1 h d) (hW 2 h d) (hW 3 h d)

/-- Rows `0 … 2` of the block: from the last three of the eight positions before the block (zeros when the block
    starts the sequence) and the block's first three rows. -/
theorem piece_edge0 (i : grid0.Coords) (W' : Vec F S4x16x128 .f32) (hW : ∀ (k : Fin 4) (h : Fin 16) (d : Fin 128), W' (ix3 k h d) = Wt (ix3 k h d))
    (u : Vec F S1x3x16x128 .f32) (v : Vec F S1x256x16x128 .f32)
    (hu : ∀ (j : Fin 3) (h : Fin 16) (d : Fin 128), u (ix4 0 j h d) = Hh (ix4 0 ⟨5 + j.val, by have := j.isLt; omega⟩ h d))
    (hv : ∀ (r : Fin 256) (h : Fin 16) (d : Fin 128), v (ix4 0 r h d) = X (ix4 0 ⟨r.val, by have := r.isLt; omega⟩ h d))
    (r : Fin 3) (h : Fin 16) (d : Fin 128) :
    k0_pay1 W' (k0_pay10 i u v) (ix4 0 r h d)
      = convBlk X Hh Wt (Scalar.cmpi .eq (BitVec.ofNat 32 (i 1).val) 0#32) (ix4 0 ⟨r.val, by have := r.isLt; omega⟩ h d) := by
  rw [pay1_apply, convBlk_ix4]
  exact comb_congr
    (pay10_row X Hh i u v hu hv r 0 (by omega) _ (by show r.val + 3 + 0 = r.val + 3; omega) h d)
    (pay10_row X Hh i u v hu hv r 1 (by omega) _ (by show r.val + 2 + 1 = r.val + 3; omega) h d)
    (pay10_row X Hh i u v hu hv r 2 (by omega) _ (by show r.val + 1 + 2 = r.val + 3; omega) h d)
    (pay10_row X Hh i u v hu hv r 3 (by omega) _ (by show r.val + 3 = r.val + 3; omega) h d)
    (hW 0 h d) (hW 1 h d) (hW 2 h d) (hW 3 h d)

end Cert.KernelIdeal.Hand

end
-- ==== Proof.KI.Body.lean ====
import proofs.«164929_j54657753809306_2_alg».proof.Proof.Gen.KernelIdeal.Launch
import proofs.«164929_j54657753809306_2_alg».proof.Proof.Gen.KernelIdeal.Skeleton
import proofs.«164929_j54657753809306_2_alg».proof.Proof.Gen.KernelIdeal.Points
import proofs.«164929_j54657753809306_2_alg».proof.Proof.Spec
import Idealize.ShloMosaic.Lib.Pipeline.FrameBody
import Idealize.ShloMosaic.Lib.Ring
import Idealize.ShloMosaic.Lib.Tactic
import proofs.«164929_j54657753809306_2_alg».proof.Proof.KI.Pieces
import Idealize.ShloMosaic.Lib.WholeRead
set_option maxRecDepth 16384

/-
  The body of the kernel at one grid point, for every float instance: handed the block of 1024 positions, the eight
  positions before it and the filter, it leaves the block's convolution in the output block.

  The body writes the output block chunk by chunk (four chunks of 256 rows, the last three in a counted loop), two
  stores per chunk. The loop's invariant is that every row below the current chunk already holds the convolution.
-/
noncomputable section

namespace Cert.KernelIdeal.Hand

open Cert.KernelIdeal Cert.KernelIdeal.Gen Cert.Conv4
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block's rows below `n` hold `G`. -/
def AgreeBelow (arg5 : Memref sig .tc .vmem S1x1024x16x128 .f32) (G : S1x1024x16x128.Idx → Elt F .f32) (n : ℕ)
    (f : BufTy.Contents (Elt F) arg5.view.ty) : Prop :=
  ∀ y : S1x1024x16x128.Idx, (y 1).val < n → arg5.view.read (Elt F) f y = G y

/-- A unit-stride rectangle of `R` whole rows starting at row `o` places its index `(0, r, h, d)` at `(0, o + r, h, d)`. -/
theorem unit_emb_rows {R : ℕ} (o : ℕ)
    (hin : ∀ a, (![0, o, 0, 0] : Fin 4 → ℕ) a + (⟨4, ![1, R, 16, 128]⟩ : Shape).size a ≤ S1x1024x16x128.size a)
    (r : Fin R) (h : Fin 16) (d : Fin 128) (hr : o + r.val < 1024) :
    (Rect.unit (s := S1x1024x16x128) ![0, o, 0, 0] (⟨4, ![1, R, 16, 128]⟩ : Shape).size hin).emb (ix4 0 r h d)
      = ix4 0 ⟨o + r.val, hr⟩ h d := by
  funext a
  apply Fin.ext
  rw [Rect.emb_apply]
  match a with
  | ⟨0, _⟩ => show 0 + 1 * 0 = 0; rfl
  | ⟨1, _⟩ => show o + 1 * r.val = o + r.val; omega
  | ⟨2, _⟩ => show 0 + 1 * h.val = h.val; omega
  | ⟨3, _⟩ => show 0 + 1 * d.val = d.val; omega

/-- Membership in such a rectangle is a condition on the row alone. -/
theorem mem_unit_rows {R : ℕ} (o : ℕ)
    (hin : ∀ a, (![0, o, 0, 0] : Fin 4 → ℕ) a + (⟨4, ![1, R, 16, 128]⟩ : Shape).size a ≤ S1x1024x16x128.size a)
    (y : S1x1024x16x128.Idx) :
    y ∈ (Rect.unit (s := S1x1024x16x128) ![0, o, 0, 0] (⟨4, ![1, R, 16, 128]⟩ : Shape).size hin).set ↔ o ≤ (y 1).val ∧ (y 1).val < o + R := by
  rw [Rect.mem_set_unit]
  constructor
  · intro hm; exact hm 1
  · intro hm
    have h0 : (y 0).val < 1 := (y 0).isLt
    have h2 : (y 2).val < 16 := (y 2).isLt
    have h3 : (y 3).val < 128 := (y 3).isLt
    have key : ∀ a : Fin 4, (![0, o, 0, 0] : Fin 4 → ℕ) a ≤ (y a).val ∧ (y a).val < (![0, o, 0, 0] : Fin 4 → ℕ) a + (![1, R, 16, 128] : Fin 4 → ℕ) a := by
      intro a
      match a with
      | ⟨0, _⟩ => exact ⟨Nat.zero_le _, by show (y 0).val < 0 + 1; omega⟩
      | ⟨1, _⟩ => exact hm
      | ⟨2, _⟩ => exact ⟨Nat.zero_le _, by show (y 2).val < 0 + 16; omega⟩
      | ⟨3, _⟩ => exact ⟨Nat.zero_le _, by show (y 3).val < 0 + 128; omega⟩
    exact key

/-- Writing rows `n … n + 2` and rows `n + 3 … n + 255` with the convolution extends the agreement by one chunk. -/
theorem agree_step (arg5 : Memref sig .tc .vmem S1x1024x16x128 .f32) (G : S1x1024x16x128.Idx → Elt F .f32) (n : ℕ)
    (f : BufTy.Contents (Elt F) arg5.view.ty) (hf : AgreeBelow arg5 G n f)
    (oA oB : Fin 4 → ℕ) (nA : ℕ) (hnA : nA = n + 3) (hoA : oA = ![0, nA, 0, 0]) (hoB : oB = ![0, n, 0, 0])
    (hA : ∀ a, oA a + S1x253x16x128.size a ≤ S1x1024x16x128.size a) (hB : ∀ a, oB a + S1x3x16x128.size a ≤ S1x1024x16x128.size a)
    (pA : S1x253x16x128.Idx → Elt F .f32) (pB : S1x3x16x128.Idx → Elt F .f32)
    (hpA : ∀ (r : Fin 253) (h : Fin 16) (d : Fin 128) (hr : n + 3 + r.val < 1024), pA (ix4 0 r h d) = G (ix4 0 ⟨n + 3 + r.val, hr⟩ h d))
    (hpB : ∀ (r : Fin 3) (h : Fin 16) (d : Fin 128) (hr : n + r.val < 1024), pB (ix4 0 r h d) = G (ix4 0 ⟨n + r.val, hr⟩ h d)) :
    AgreeBelow arg5 G (n + 256) (arg5.view.writes (Elt F) f
      [⟨Rect.unit (s := S1x1024x16x128) oB S1x3x16x128.size hB, pB⟩, ⟨Rect.unit (s := S1x1024x16x128) oA S1x253x16x128.size hA, pA⟩]) := by
  subst hnA hoA hoB
  intro y hy
  by_cases hlt : (y 1).val < n
  · rw [View.read_writes_apply_of_forall_not_mem]
    · exact hf y hlt
    · intro p hp
      simp only [List.mem_cons, List.not_mem_nil, or_false] at hp
      rcases hp with rfl | rfl
      · intro hm; have := (mem_unit_rows (R := 3) n hB y).mp hm; omega
      · intro hm; have := (mem_unit_rows (R := 253) (n + 3) hA y).mp hm; omega
  · refine View.read_writes_apply_of_pieces _ _ G _ ?_ y ?_
    · intro p hp x
      simp only [List.mem_cons, List.not_mem_nil, or_false] at hp
      rcases hp with rfl | rfl
      · obtain ⟨r, h, d, rfl⟩ : ∃ (r : Fin 3) (h : Fin 16) (d : Fin 128), x = ix4 0 r h d :=
          ⟨x 1, x 2, x 3, by
            funext a
            match a with
            | ⟨0, _⟩ => exact Fin.eq_zero _
            | ⟨1, _⟩ => rfl
            | ⟨2, _⟩ => rfl
            | ⟨3, _⟩ => rfl⟩
        have hr : n + r.val < 1024 := by have h1 := hB 1; change n + 3 ≤ 1024 at h1; have := r.isLt; omega
        exact (hpB r h d hr).trans (congrArg G (unit_emb_rows (R := 3) n hB r h d hr).symm)
      · obtain ⟨r, h, d, rfl⟩ : ∃ (r : Fin 253) (h : Fin 16) (d : Fin 128), x = ix4 0 r h d :=
          ⟨x 1, x 2, x 3, by
            funext a
            match a with
            | ⟨0, _⟩ => exact Fin.eq_zero _
            | ⟨1, _⟩ => rfl
            | ⟨2, _⟩ => rfl
            | ⟨3, _⟩ => rfl⟩
        have hr : n + 3 + r.val < 1024 := by have h1 := hA 1; change n + 3 + 253 ≤ 1024 at h1; have := r.isLt; omega
        exact (hpA r h d hr).trans (congrArg G (unit_emb_rows (R := 253) (n + 3) hA r h d hr).symm)
    · by_cases h3 : (y 1).val < n + 3
      · exact ⟨_, List.mem_cons_self, (mem_unit_rows (R := 3) n hB y).mpr ⟨by omega, h3⟩⟩
      · exact ⟨_, List.mem_cons_of_mem _ List.mem_cons_self, (mem_unit_rows (R := 253) (n + 3) hA y).mpr ⟨by omega, by omega⟩⟩

/-- Agreement on all 1024 rows is equality. -/
theorem agree_all (arg5 : Memref sig .tc .vmem S1x1024x16x128 .f32) (G : S1x1024x16x128.Idx → Elt F .f32)
    (f : BufTy.Contents (Elt F) arg5.view.ty) (hf : AgreeBelow arg5 G 1024 f) : arg5.view.read (Elt F) f = G :=
  funext fun y => hf y (y 1).isLt

/-- Two spellings of one row give one index. -/
theorem ix4_row_congr {R : ℕ} (a b : ℕ) (ha : a < R) (hb : b < R) (e : a = b) (h : Fin 16) (d : Fin 128) :
    ix4 (0 : Fin 1) (⟨a, ha⟩ : Fin R) h d = ix4 (0 : Fin 1) (⟨b, hb⟩ : Fin R) h d := by
  subst e; rfl

/-! ## What the loads read -/

/-- A load of `R` whole rows from row `o` of a whole block held at contents that read `X` reads `X`'s rows. -/
theorem read_rows {R : ℕ} (arg : Memref sig .tc .vmem S1x1024x16x128 .f32) (harg : arg.IsWhole) (X : Vec F S1x1024x16x128 .f32)
    (off : Fin 4 → ℕ) (o : ℕ) (hoff : off = ![0, o, 0, 0])
    (hin : ∀ a, off a + (⟨4, ![1, R, 16, 128]⟩ : Shape).size a ≤ S1x1024x16x128.size a)
    (r : Fin R) (h : Fin 16) (d : Fin 128) (hr : o + r.val < 1024) :
    View.readAt (Elt F) arg.view (Rect.unit (s := S1x1024x16x128) off (⟨4, ![1, R, 16, 128]⟩ : Shape).size hin).toLoadRect (harg.unread X) (ix4 0 r h d)
      = X (ix4 0 ⟨o + r.val, hr⟩ h d) := by
  subst hoff
  exact (harg.readAt_unread X _ _).trans (congrArg X (unit_emb_rows o hin r h d hr))

/-- The load of the last three of the eight rows before the block. -/
theorem read_halo (arg : Memref sig .tc .vmem S1x8x16x128 .f32) (harg : arg.IsWhole) (Hh : Vec F S1x8x16x128 .f32)
    (hin : ∀ a, (![0, 5, 0, 0] : Fin 4 → ℕ) a + S1x3x16x128.size a ≤ S1x8x16x128.size a)
    (j : Fin 3) (h : Fin 16) (d : Fin 128) :
    View.readAt (Elt F) arg.view (Rect.unit (s := S1x8x16x128) ![0, 5, 0, 0] S1x3x16x128.size hin).toLoadRect (harg.unread Hh) (ix4 0 j h d)
      = Hh (ix4 0 ⟨5 + j.val, by have := j.isLt; omega⟩ h d) := by
  refine (harg.readAt_unread Hh _ _).trans (congrArg Hh ?_)
  funext a
  apply Fin.ext
  rw [LoadRect.idx_apply]
  match a with
  | ⟨0, _⟩ => show 0 + 1 * 0 = 0; rfl
  | ⟨1, _⟩ => show 5 + 1 * j.val = 5 + j.val; omega
  | ⟨2, _⟩ => show 0 + 1 * h.val = h.val; omega
  | ⟨3, _⟩ => show 0 + 1 * d.val = d.val; omega

/-- The load of the whole filter. -/
theorem read_filter (arg : Memref sig .tc .vmem S4x16x128 .f32) (harg : arg.IsWhole) (Wt : Vec F S4x16x128 .f32)
    (hin : ∀ a, (![0, 0, 0] : Fin 3 → ℕ) a + S4x16x128.size a ≤ S4x16x128.size a)
    (k : Fin 4) (h : Fin 16) (d : Fin 128) :
    View.readAt (Elt F) arg.view (Rect.unit (s := S4x16x128) ![0, 0, 0] S4x16x128.size hin).toLoadRect (harg.unread Wt) (ix3 k h d)
      = Wt (ix3 k h d) := by
  refine (harg.readAt_unread Wt _ _).trans (congrArg Wt ?_)
  funext a
  apply Fin.ext
  rw [LoadRect.idx_apply]
  match a with
  | ⟨0, _⟩ => show 0 + 1 * k.val = k.val; omega
  | ⟨1, _⟩ => show 0 + 1 * h.val = h.val; omega
  | ⟨2, _⟩ => show 0 + 1 * d.val = d.val; omega

/-! ## The loop and the body -/

/-- Before trip `k`: the input block as it was, and the output block's rows below `256 k + 256` at the convolution. -/
def loopI (c : Dev nD) (arg2 : Memref sig .tc .vmem S1x1024x16x128 .f32) (harg2 : arg2.IsWhole)
    (arg5 : Memref sig .tc .vmem S1x1024x16x128 .f32) (X : Vec F S1x1024x16x128 .f32) (G : S1x1024x16x128.Idx → Elt F .f32)
    (k : ℕ) (_u : Unit) : sProp 𝕄 :=
  iprop((arg2.view.loc (c : Thread nD τ) ↦[arg2.view.set]{fullShare} harg2.unread X)
    ∗ (∃ f, (arg5.view.loc (c : Thread nD τ) ↦[arg5.view.set]{fullShare} f) ∗ ⌜AgreeBelow arg5 G (256 * k + 256) f⌝))

theorem trips_eq : Scf.trips k0_t1_loop.lb k0_t1_loop.ub k0_t1_loop.st = 3 := by decide

set_option maxHeartbeats 2000000 in
/-- The body on any whole staging memrefs: from the inputs at their blocks and the output at anything, to the inputs
    as they were and the output at the block's convolution. -/
theorem bodyRun (c : Dev nD) (i : grid0.Coords)
    (arg2 : Memref sig .tc .vmem S1x1024x16x128 .f32) (harg2 : arg2.IsWhole)
    (arg3 : Memref sig .tc .vmem S1x8x16x128 .f32) (harg3 : arg3.IsWhole)
    (arg4 : Memref sig .tc .vmem S4x16x128 .f32) (harg4 : arg4.IsWhole)
    (arg5 : Memref sig .tc .vmem S1x1024x16x128 .f32) (harg5 : arg5.IsWhole)
    (X : Vec F S1x1024x16x128 .f32) (Hh : Vec F S1x8x16x128 .f32) (Wt : Vec F S4x16x128 .f32)
    (E : Set ℕ) (K : PUnit → sProp 𝕄) :
    iprop(owns (c : Thread nD τ) arg2 fullShare X ∗ owns (c : Thread nD τ) arg3 fullShare Hh ∗ owns (c : Thread nD τ) arg4 fullShare Wt
        ∗ (∃ d, owns (c : Thread nD τ) arg5 fullShare d)
        ∗ (iprop(owns (c : Thread nD τ) arg2 fullShare X ∗ owns (c : Thread nD τ) arg3 fullShare Hh ∗ owns (c : Thread nD τ) arg4 fullShare Wt
            ∗ owns (c : Thread nD τ) arg5 fullShare (convBlk X Hh Wt (Scalar.cmpi .eq (BitVec.ofNat 32 (i 1).val) 0#32))) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2
  obtain rfl := harg3.eq_unread hf3
  obtain rfl := harg4.eq_unread hf4
  sl_exec
  sl_for (loopI c arg2 harg2 arg5 X (convBlk X Hh Wt (Scalar.cmpi .eq (BitVec.ofNat 32 (i 1).val) 0#32))) $$ [H2 H5]
  · intro k acc
    unfold loopI
    iintro ⟨H2, ⟨%f, H5, %hf⟩⟩
    sl_exec
    sl_step
    isplitl [H2]; · iexact H2
    iexists _
    isplitl [H5]; · iexact H5
    ipureintro
    have hk : k.val < 3 := trips_eq ▸ k.isLt
    have e : 256 * (k.val + 1) + 256 = (256 * k.val + 256) + 256 := by omega
    rw [e]
    unfold bodyRun.sl.r_2 bodyRun.sl.r_3 bodyRun.sl.r_4 bodyRun.sl.r
    have hW := fun (q : Fin 4) (h : Fin 16) (d : Fin 128) => read_filter arg4 harg4 Wt inb_S4x16x128_S4x16x128_0_0_0 q h d
    have hv : ∀ (r : Fin 256) (h : Fin 16) (d : Fin 128),
        View.readAt (Elt F) arg2.view (Rect.unit (s := S1x1024x16x128) (k0_off2 k) S1x256x16x128.size (k0_off2_inb k)).toLoadRect (harg2.unread X) (ix4 0 r h d)
          = X (ix4 0 ⟨256 * k.val + 256 + r.val, by have := r.isLt; omega⟩ h d) :=
      fun r h d => read_rows (R := 256) arg2 harg2 X (k0_off2 k) (256 * k.val + 256) (k0_off2_eq k) (k0_off2_inb k) r h d _
    have hu : ∀ (j : Fin 3) (h : Fin 16) (d : Fin 128),
        View.readAt (Elt F) arg2.view (Rect.unit (s := S1x1024x16x128) (k0_off1 k) S1x3x16x128.size (k0_off1_inb k)).toLoadRect (harg2.unread X) (ix4 0 j h d)
          = X (ix4 0 ⟨256 * k.val + 256 - 3 + j.val, by have := j.isLt; omega⟩ h d) :=
      fun j h d => (read_rows (R := 3) arg2 harg2 X (k0_off1 k) (256 * k.val + 253) (k0_off1_eq k) (k0_off1_inb k) j h d (by have := j.isLt; omega)).trans
        (congrArg X (ix4_row_congr _ _ _ _ (by omega) h d))
    refine agree_step arg5 _ (256 * k.val + 256) f hf (k0_off3 k) (k0_off4 k) (256 * k.val + 259) (by omega) (k0_off3_eq k) (k0_off4_eq k) _ _ _ _ ?_ ?_
    · intro r h d hr
      exact piece_rows X Hh Wt _ _ hW (256 * k.val + 256) (by omega) _ hv r h d
    · intro r h d hr
      exact piece_edge X Hh Wt _ _ hW (256 * k.val + 256) (by omega) (by omega) _ _ hu hv r h d
  · unfold loopI
    isplitl [H2]; · iexact H2
    iexists _
    isplitl [H5]; · iexact H5
    ipureintro
    show AgreeBelow arg5 _ (0 + 256) _
    unfold bodyRun.sl.r_1 bodyRun.sl.r
    have hW := fun (q : Fin 4) (h : Fin 16) (d : Fin 128) => read_filter arg4 harg4 Wt inb_S4x16x128_S4x16x128_0_0_0 q h d
    have hv : ∀ (r : Fin 256) (h : Fin 16) (d : Fin 128),
        View.readAt (Elt F) arg2.view (Rect.unit (s := S1x1024x16x128) ![0, 0, 0, 0] S1x256x16x128.size inb_S1x1024x16x128_S1x256x16x128_0_0_0_0).toLoadRect (harg2.unread X) (ix4 0 r h d)
          = X (ix4 0 ⟨r.val, by have := r.isLt; omega⟩ h d) :=
      fun r h d => (read_rows (R := 256) arg2 harg2 X ![0, 0, 0, 0] 0 rfl inb_S1x1024x16x128_S1x256x16x128_0_0_0_0 r h d (by have := r.isLt; omega)).trans
        (congrArg X (ix4_row_congr _ _ _ _ (by omega) h d))
    have hu := fun (j : Fin 3) (h : Fin 16) (d : Fin 128) => read_halo arg3 harg3 Hh inb_S1x8x16x128_S1x3x16x128_0_5_0_0 j h d
    refine agree_step arg5 _ 0 f5 (fun y hy => absurd hy (Nat.not_lt_zero _)) ![0, 3, 0, 0] ![0, 0, 0, 0] 3 rfl rfl rfl _ _ _ _ ?_ ?_
    · intro r h d hr
      exact (piece_rows0 X Hh Wt _ _ hW _ hv r h d).trans (congrArg _ (ix4_row_congr _ _ _ _ (by omega) h d))
    · intro r h d hr
      exact (piece_edge0 X Hh Wt i _ hW _ _ hu hv r h d).trans (congrArg _ (ix4_row_congr _ _ _ _ (by omega) h d))
  · iintro %acc HI
    sl_exec
    sl_step
    unfold loopI
    icases HI with ⟨H2, ⟨%f, H5, %hf⟩⟩
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    iexists _; isplitr
    swap; · iexact H5
    ipureintro
    rw [trips_eq] at hf
    exact agree_all arg5 _ f hf

end Cert.KernelIdeal.Hand

end
-- ==== Proof.KI.Run.lean ====
/-
  The pipeline's proof data and its run, for every float instance.

  The grid has sixteen points (batch × four blocks of 1024 positions). At a point the body is handed the block of
  1024 positions of x, the eight positions of x just before the block, and the whole filter; it leaves in the output
  block the convolution of that block (`convBlk`, stated in Spec.lean). The input x is read through two windows, so
  its buffer is held half by each; the filter's and the result's buffers are held whole.
-/
import proofs.«164929_j54657753809306_2_alg».proof.Proof.KI.Body

set_option maxRecDepth 16384

noncomputable section

namespace Cert.KernelIdeal.Hand

open Cert.KernelIdeal Cert.KernelIdeal.Gen Cert.Conv4
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whether point `t`'s block starts the sequence, as the body computes it. -/
def zAt (t : Fin cfg0.N) : BitVec 1 := Scalar.cmpi .eq (BitVec.ofNat 32 ((grid0.coords t) 1).val) 0#32

/-- What the body leaves in the output block at point `t`: the convolution of the point's blocks. -/
def outAt (c : Dev nD) (t : Fin cfg0.N) : Vec F S1x1024x16x128 .f32 :=
  convBlk (iblk m c 0 t) (iblk m c 1 t) (iblk m c 2 t) (zAt t)

/-- The proof data: the arrays as launched; each input's buffer left at its block, the output's at the block's
    convolution; nothing kept between points; the two windows on x hold half of its buffer each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

abbrev ms0_0 (t : Fin cfg0.N) : Memref sig .tc .vmem S1x1024x16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x16x128 .f32 := win0_3.stage (cfg0.slots t 3)
abbrev hs0_3 (t : Fin cfg0.N) : (ms0_3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outAt zAt
  iintro ⟨HΦ, Ho, ⟨%d0, H0⟩, ⟨%d1, H1⟩, ⟨%d2, H2⟩, ⟨%d3, H3⟩⟩
  iapply (bodyRun c (grid0.coords t) _ (hs0_0 t) _ (hs0_1 t) _ (hs0_2 t) _ (hs0_3 t) (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The buffers behind the arrays, each held whole, are the windows' holdings: x's buffer halved between its two
    windows. -/
theorem arrays_split (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e : (bigSep ({main_arg0, main_arg1, main_v0} : Finset (Ref sig .tc)) fun b => (((c : Thread nD τ).loc b) ↦{fullShare} V m c b : sProp 𝕄))
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) := by
    rw [bigSep_insert (by decide), bigSep_insert (by decide), bigSep_singleton]; rfl
  have ea : (dats m 0 c).arrays (fun w => (dats m 0 c).arrAt w 0)
      = bigSep Finset.univ fun w : Fin cfg0.W => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  unfold Pipeline.arrBufs
  rw [ea, show Finset.univ.image (Pipeline.arrRef spec0) = {main_arg0, main_arg1, main_v0} from by decide, e, bigSep_W0]
  iintro ⟨H0, H1, H2⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  iexact H2

-- the launch theorem's implicit arguments are found by unifying its conclusion with this one
set_option backward.isDefEq.respectTransparency.types false in
/-- Every weakly fair execution of the program terminates, and at the end every array of the pipeline holds what the
    proof data compute: the inputs their launch contents, the result its launch contents overwritten block by block. -/
theorem run_main : θ_run defs (onTc (τ := τ) (main (F := F))) (s₀ m ρ) (fun r => ∀ c : Dev nD, ∀ w : Fin cfg0.W,
      r.2.mem (((cfg0).spec w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_split m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The arguments end unchanged -/

/-- The first argument is read through windows 0 and 1 and never written back. -/
theorem kept_arg0 (r : PUnit × MemSt nD τ sig (Elt F))
    (h : ∀ c : Dev nD, ∀ w : Fin cfg0.W, r.2.mem (((cfg0).spec w).arr.view.loc (c : Thread nD τ)) = (dats m 0 c).arrAt w cfg0.N) (c : Dev nD) :
    r.2.mem ((c : Thread nD τ).loc main_arg0) = m ((c : Thread nD τ).loc main_arg0) :=
  (h c 0).trans (((dats m 0 c).arrAt_in 0 rfl _).trans (A_eq m c 0))

/-- The second argument is read through window 2 and never written back. -/
theorem kept_arg1 (r : PUnit × MemSt nD τ sig (Elt F))
    (h : ∀ c : Dev nD, ∀ w : Fin cfg0.W, r.2.mem (((cfg0).spec w).arr.view.loc (c : Thread nD τ)) = (dats m 0 c).arrAt w cfg0.N) (c : Dev nD) :
    r.2.mem ((c : Thread nD τ).loc main_arg1) = m ((c : Thread nD τ).loc main_arg1) :=
  (h c 2).trans (((dats m 0 c).arrAt_in 2 rfl _).trans (A_eq m c 2))

/-- The program runs to the end, faults nowhere and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.KernelIdeal.Hand

end
-- ==== Proof.SpecBlock.lean ====
/-
  The convolution of one block of 1024 consecutive positions is the convolution of the whole array at those positions.

  Cut the position axis of x into four blocks of 1024. For block i and a row r of it, the input k positions before row
  r (k ≤ 8) is

    * row r - k of the block itself, when k ≤ r;
    * otherwise, a position before the block: for the first block (i = 0) it lies before the sequence and is zero; for a
      later block it is row 8 + r - k of the eight positions that precede the block, since
      1024·i - 8 + (8 + r - k) = 1024·i + r - k.

  That is what the block form reads, so the four taps agree one by one; the filter entries and the way the taps are
  combined are the same on both sides.
-/
import proofs.«164929_j54657753809306_2_alg».proof.Proof.Spec

noncomputable section

namespace Cert.Conv4

open Idealize.ShloMosaic Idealize.ShloMosaic.ValueIdx

variable {F : FTy → Type} [FloatOps F]

/-- Row `r` of block `i` is a position of the sequence. -/
theorem pos_lt (i : Fin 4) (r : Fin 1024) : 1024 * i.val + r.val < 4096 := by
  have hi : i.val < 4 := i.isLt
  have hr : r.val < 1024 := r.isLt
  omega

/-- Row `q` of the eight positions before block `i` is a position of the sequence. -/
theorem halo_lt (i : Fin 4) (q : Fin 8) : 1024 * i.val - 8 + q.val < 4096 := by
  have hi : i.val < 4 := i.isLt
  have hq : q.val < 8 := q.isLt
  omega

/-- One tap of a block is the tap of the whole array at the block's position, for a tap distance of at most eight. -/
theorem tapBlk_eq (x : SX.Idx → F .f32) (b i : Fin 4) (X : SB.Idx → F .f32) (H : SH.Idx → F .f32) (z : BitVec 1)
    (hX : ∀ (r : Fin 1024) (h : Fin 16) (d : Fin 128), X (ix4 0 r h d) = x (ix4 b ⟨1024 * i.val + r.val, pos_lt i r⟩ h d))
    (hH : 0 < i.val → ∀ (q : Fin 8) (h : Fin 16) (d : Fin 128),
      H (ix4 0 q h d) = x (ix4 b ⟨1024 * i.val - 8 + q.val, halo_lt i q⟩ h d))
    (hz : z = 1#1 ↔ i.val = 0) (r : Fin 1024) (h : Fin 16) (d : Fin 128) (k : Nat) (hk8 : k ≤ 8) :
    tapBlk X H z r h d k = tap x b ⟨1024 * i.val + r.val, pos_lt i r⟩ h d k := by
  have hi4 : i.val < 4 := i.isLt
  have hr : r.val < 1024 := r.isLt
  unfold tapBlk tap
  by_cases hk : k ≤ r.val
  · -- inside the block
    have hk' : k ≤ (⟨1024 * i.val + r.val, pos_lt i r⟩ : Fin 4096).val := by
      show k ≤ 1024 * i.val + r.val; omega
    rw [dif_pos hk, dif_pos hk', hX]
    exact congrArg x (congrArg (fun s => ix4 b s h d) (Fin.ext (by
      show 1024 * i.val + (r.val - k) = 1024 * i.val + r.val - k; omega)))
  · rw [dif_neg hk]
    by_cases hi : i.val = 0
    · -- before the first block: before the sequence
      have hk' : ¬ k ≤ (⟨1024 * i.val + r.val, pos_lt i r⟩ : Fin 4096).val := by
        show ¬ k ≤ 1024 * i.val + r.val; omega
      rw [dif_neg hk', hz.mpr hi, select_one]
    · -- before a later block: among the eight positions that precede it
      have hk' : k ≤ (⟨1024 * i.val + r.val, pos_lt i r⟩ : Fin 4096).val := by
        show k ≤ 1024 * i.val + r.val; omega
      have hz0 : z = 0#1 := eq_zero_of_ne_one (fun e => hi (hz.mp e))
      rw [dif_pos hk', hz0, select_zero, hH (by omega)]
      exact congrArg x (congrArg (fun s => ix4 b s h d) (Fin.ext (by
        show 1024 * i.val - 8 + (8 + r.val - k) = 1024 * i.val + r.val - k; omega)))

/-- The block form, at the block `i` of batch `b` cut out of `x` (`hX`), the eight positions before it (`hH`, asked
    only when there are any) and the flag saying the block starts the sequence (`hz`), is the array form at the
    block's positions. -/
theorem convBlk_eq (x : SX.Idx → F .f32) (w : SW.Idx → F .f32) (b i : Fin 4) (X : SB.Idx → F .f32) (H : SH.Idx → F .f32)
    (z : BitVec 1)
    (hX : ∀ (r : Fin 1024) (h : Fin 16) (d : Fin 128), X (ix4 0 r h d) = x (ix4 b ⟨1024 * i.val + r.val, pos_lt i r⟩ h d))
    (hH : 0 < i.val → ∀ (q : Fin 8) (h : Fin 16) (d : Fin 128),
      H (ix4 0 q h d) = x (ix4 b ⟨1024 * i.val - 8 + q.val, halo_lt i q⟩ h d))
    (hz : z = 1#1 ↔ i.val = 0) (r : Fin 1024) (h : Fin 16) (d : Fin 128) :
    convBlk X H w z (ix4 0 r h d) = conv x w (ix4 b ⟨1024 * i.val + r.val, pos_lt i r⟩ h d) := by
  have e : ∀ k, k ≤ 8 → tapBlk X H z r h d k = tap x b ⟨1024 * i.val + r.val, pos_lt i r⟩ h d k :=
    fun k hk => tapBlk_eq x b i X H z hX hH hz r h d k hk
  show comb (tapBlk X H z r h d 0) (tapBlk X H z r h d 1) (tapBlk X H z r h d 2) (tapBlk X H z r h d 3)
      (w (ix3 0 h d)) (w (ix3 1 h d)) (w (ix3 2 h d)) (w (ix3 3 h d))
    = comb (tap x b ⟨1024 * i.val + r.val, pos_lt i r⟩ h d 0) (tap x b ⟨1024 * i.val + r.val, pos_lt i r⟩ h d 1)
      (tap x b ⟨1024 * i.val + r.val, pos_lt i r⟩ h d 2) (tap x b ⟨1024 * i.val + r.val, pos_lt i r⟩ h d 3)
      (w (ix3 0 h d)) (w (ix3 1 h d)) (w (ix3 2 h d)) (w (ix3 3 h d))
  rw [e 0 (by omega), e 1 (by omega), e 2 (by omega), e 3 (by omega)]

end Cert.Conv4

end
-- ==== Proof.KI.Final.lean ====
/-
  From the blocks to the array: after the run the result array is the convolution of the two arguments.

  The grid's sixteen points are the pairs (b, i) of a batch entry and a block of 1024 positions. At point (b, i) the
  body is handed rows 1024·i … 1024·i + 1023 of batch entry b of x, the eight rows before them (for i > 0) and the
  whole filter, and leaves the block's convolution, which by the block form of the specification is the array's
  convolution at those rows. So what each point writes back is its block of one function of the arguments; every
  index (b, s, h, d) of the result lies in the block of the point (b, s / 1024); hence the array ends holding that
  function.
-/
import proofs.«164929_j54657753809306_2_alg».proof.Proof.KI.Run
import proofs.«164929_j54657753809306_2_alg».proof.Proof.SpecBlock
import Idealize.ShloMosaic.Lib.Pipeline.Value

set_option maxRecDepth 16384

noncomputable section

namespace Cert.KernelIdeal.Hand

open Cert.KernelIdeal Cert.KernelIdeal.Gen Cert.Conv4
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The index maps over the grid -/

/-- At every grid point (b, i): the block of x and the output block are block (b, i, 0, 0) of their arrays; the eight
    positions before the block are block (b, 128·i − 1, 0, 0) of x when i > 0; the filter's block is the whole filter;
    and the flag the body computes says whether i = 0. -/
theorem index_facts : ∀ t : Fin cfg0.N,
    win0_0.index t (0 : Fin 4) = (grid0.coords t 0).val ∧ win0_0.index t (1 : Fin 4) = (grid0.coords t 1).val
    ∧ win0_0.index t (2 : Fin 4) = 0 ∧ win0_0.index t (3 : Fin 4) = 0
    ∧ win0_1.index t (0 : Fin 4) = (grid0.coords t 0).val
    ∧ (0 < (grid0.coords t 1).val → win0_1.index t (1 : Fin 4) = 128 * (grid0.coords t 1).val - 1)
    ∧ win0_1.index t (2 : Fin 4) = 0 ∧ win0_1.index t (3 : Fin 4) = 0
    ∧ win0_2.index t (0 : Fin 3) = 0 ∧ win0_2.index t (1 : Fin 3) = 0 ∧ win0_2.index t (2 : Fin 3) = 0
    ∧ win0_3.index t (0 : Fin 4) = (grid0.coords t 0).val ∧ win0_3.index t (1 : Fin 4) = (grid0.coords t 1).val
    ∧ win0_3.index t (2 : Fin 4) = 0 ∧ win0_3.index t (3 : Fin 4) = 0
    ∧ (Scalar.cmpi .eq (BitVec.ofNat 32 ((grid0.coords t) 1).val) 0#32 = 1#1 ↔ (grid0.coords t 1).val = 0) :=
  (by decide +kernel : ∀ t : Fin grid0.N, _)

/-- Every block (b, i) is some point's. -/
theorem point_of_block : ∀ (b i : Fin 4), ∃ t : Fin cfg0.N, (grid0.coords t 0).val = b.val ∧ (grid0.coords t 1).val = i.val :=
  (by decide +kernel : ∀ (b i : Fin 4), ∃ t : Fin grid0.N, (grid0.coords t 0).val = b.val ∧ (grid0.coords t 1).val = i.val)

/-! ## The point's batch entry and block -/

theorem coord0_lt (t : Fin cfg0.N) : (grid0.coords t 0).val < 4 := (grid0.coords t 0).isLt
theorem coord1_lt (t : Fin cfg0.N) : (grid0.coords t 1).val < 4 := (grid0.coords t 1).isLt

/-- The batch entry point t works on. -/
abbrev batchOf (t : Fin cfg0.N) : Fin 4 := ⟨(grid0.coords t 0).val, coord0_lt t⟩
/-- The block of 1024 positions point t works on. -/
abbrev blockOf (t : Fin cfg0.N) : Fin 4 := ⟨(grid0.coords t 1).val, coord1_lt t⟩

/-! ## The blocks read off the arrays -/

/-- Row r of the block of x at point (b, i) is position 1024·i + r of batch entry b. -/
theorem xblk_apply (c : Dev nD) (t : Fin cfg0.N) (r : Fin 1024) (h : Fin 16) (d : Fin 128) :
    (iblk m c 0 t : SB.Idx → F .f32) (ix4 0 r h d)
      = (V m c main_arg0 : SX.Idx → F .f32) (ix4 (batchOf t) ⟨1024 * (blockOf t).val + r.val, pos_lt (blockOf t) r⟩ h d) := by
  obtain ⟨e0, e1, e2, e3, -⟩ := index_facts t
  unfold iblk
  rw [View.read_apply]
  show V m c main_arg0 _ = V m c main_arg0 _
  congr 1
  funext a
  apply Fin.ext
  match a with
  | ⟨0, _⟩ => show win0_0.index t (0 : Fin 4) * 1 + 1 * 0 = (grid0.coords t 0).val; omega
  | ⟨1, _⟩ => show win0_0.index t (1 : Fin 4) * 1024 + 1 * r.val = 1024 * (grid0.coords t 1).val + r.val; omega
  | ⟨2, _⟩ => show win0_0.index t (2 : Fin 4) * 16 + 1 * h.val = h.val; omega
  | ⟨3, _⟩ => show win0_0.index t (3 : Fin 4) * 128 + 1 * d.val = d.val; omega

/-- Row q of the eight positions before the block at point (b, i), i > 0, is position 1024·i − 8 + q of batch entry b. -/
theorem hblk_apply (c : Dev nD) (t : Fin cfg0.N) (hi : 0 < (blockOf t).val) (q : Fin 8) (h : Fin 16) (d : Fin 128) :
    (iblk m c 1 t : SH.Idx → F .f32) (ix4 0 q h d)
      = (V m c main_arg0 : SX.Idx → F .f32) (ix4 (batchOf t) ⟨1024 * (blockOf t).val - 8 + q.val, halo_lt (blockOf t) q⟩ h d) := by
  obtain ⟨-, -, -, -, e0, e1, e2, e3, -⟩ := index_facts t
  have e1' : win0_1.index t (1 : Fin 4) = 128 * (grid0.coords t 1).val - 1 := e1 hi
  have hi' : 0 < (grid0.coords t 1).val := hi
  unfold iblk
  rw [View.read_apply]
  show V m c main_arg0 _ = V m c main_arg0 _
  congr 1
  funext a
  apply Fin.ext
  match a with
  | ⟨0, _⟩ => show win0_1.index t (0 : Fin 4) * 1 + 1 * 0 = (grid0.coords t 0).val; omega
  | ⟨1, _⟩ => show win0_1.index t (1 : Fin 4) * 8 + 1 * q.val = 1024 * (grid0.coords t 1).val - 8 + q.val; omega
  | ⟨2, _⟩ => show win0_1.index t (2 : Fin 4) * 16 + 1 * h.val = h.val; omega
  | ⟨3, _⟩ => show win0_1.index t (3 : Fin 4) * 128 + 1 * d.val = d.val; omega

/-- The filter's block at every point is the whole filter. -/
theorem wblk_eq (c : Dev nD) (t : Fin cfg0.N) : (iblk m c 2 t : SW.Idx → F .f32) = (V m c main_arg1 : SW.Idx → F .f32) := by
  obtain ⟨-, -, -, -, -, -, -, -, e0, e1, e2, -⟩ := index_facts t
  funext y
  unfold iblk
  rw [View.read_apply]
  show V m c main_arg1 _ = V m c main_arg1 y
  congr 1
  funext a
  apply Fin.ext
  match a with
  | ⟨0, _⟩ => show win0_2.index t (0 : Fin 3) * 4 + 1 * (y 0).val = (y 0).val; omega
  | ⟨1, _⟩ => show win0_2.index t (1 : Fin 3) * 16 + 1 * (y 1).val = (y 1).val; omega
  | ⟨2, _⟩ => show win0_2.index t (2 : Fin 3) * 128 + 1 * (y 2).val = (y 2).val; omega

/-- Row r of the output block at point (b, i) sits at position 1024·i + r of batch entry b. -/
theorem out_emb (t : Fin cfg0.N) (r : Fin 1024) (h : Fin 16) (d : Fin 128) :
    (((cfg0.win 3).blk t).view.emb (ix4 (0 : Fin 1) r h d) : SX.Idx)
      = ix4 (batchOf t) ⟨1024 * (blockOf t).val + r.val, pos_lt (blockOf t) r⟩ h d := by
  obtain ⟨-, -, -, -, -, -, -, -, -, -, -, e0, e1, e2, e3, -⟩ := index_facts t
  funext a
  apply Fin.ext
  match a with
  | ⟨0, _⟩ => show win0_3.index t (0 : Fin 4) * 1 + 1 * 0 = (grid0.coords t 0).val; omega
  | ⟨1, _⟩ => show win0_3.index t (1 : Fin 4) * 1024 + 1 * r.val = 1024 * (grid0.coords t 1).val + r.val; omega
  | ⟨2, _⟩ => show win0_3.index t (2 : Fin 4) * 16 + 1 * h.val = h.val; omega
  | ⟨3, _⟩ => show win0_3.index t (3 : Fin 4) * 128 + 1 * d.val = d.val; omega

/-! ## What each point writes back -/

/-- What point t writes back is block t of the convolution of the arrays as launched. -/
theorem flushed_eq (c : Dev nD) (t : Fin cfg0.N) :
    (dats m 0 c).flushed 3 t
      = ((cfg0.win 3).blk t).view.read (Elt F) (conv (F := F) (V m c main_arg0) (V m c main_arg1)) := by
  show (cfg0.win 3).cut (grid0.coords t) ((dats m 0 c).after 3 t) = _
  rw [after0_3]
  refine funext fun (y : SB.Idx) => ?_
  obtain ⟨u, r, h, d, rfl⟩ : ∃ u r h d, y = ix4 u r h d := ⟨_, _, _, _, eq_ix4 y⟩
  obtain rfl : u = 0 := Subsingleton.elim _ _
  rw [View.read_apply]
  show outAt m c t (ix4 0 r h d)
    = conv (F := F) (V m c main_arg0) (V m c main_arg1) (((cfg0.win 3).blk t).view.emb (ix4 (0 : Fin 1) r h d))
  rw [out_emb]
  unfold outAt
  rw [wblk_eq]
  exact convBlk_eq (V m c main_arg0) (V m c main_arg1) (batchOf t) (blockOf t) (iblk m c 0 t) (iblk m c 1 t) (zAt t)
    (fun r h d => xblk_apply m c t r h d) (fun hi q h d => hblk_apply m c t hi q h d)
    (index_facts t).2.2.2.2.2.2.2.2.2.2.2.2.2.2.2 r h d

/-! ## The blocks fill the array -/

/-- An index of the result is in point t's block iff each coordinate is in the block's range on its axis. -/
theorem mem_out_blk (t : Fin cfg0.N) (i : SX.Idx) :
    i ∈ ((cfg0.win 3).blk t).view.set
      ↔ ∀ a : Fin 4, win0_3.index t a * S1x1024x16x128.size a ≤ (i a).val
          ∧ (i a).val < win0_3.index t a * S1x1024x16x128.size a + S1x1024x16x128.size a := by
  show i ∈ ((View.whole main_v0).slice (win0_3.rect t)).set ↔ _
  rw [View.set_slice_whole, Rect.mem_set_unit]
  exact Iff.rfl

/-- Every index (b, s, h, d) of the result lies in the block of the point (b, s / 1024). -/
theorem out_cover (i : SX.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 16 := (i 2).isLt
  have h3 : (i 3).val < 128 := (i 3).isLt
  obtain ⟨t, tb, ti⟩ := point_of_block ⟨(i 0).val, h0⟩ ⟨(i 1).val / 1024, by omega⟩
  have tb' : (grid0.coords t 0).val = (i 0).val := tb
  have ti' : (grid0.coords t 1).val = (i 1).val / 1024 := ti
  obtain ⟨-, -, -, -, -, -, -, -, -, -, -, e0, e1, e2, e3, -⟩ := index_facts t
  refine ⟨t, flush0_3 t, ?_⟩
  rw [mem_out_blk]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 1024 ≤ (i 1).val ∧ (i 1).val < win0_3.index t (1 : Fin 4) * 1024 + 1024
    omega
  | ⟨2, _⟩ =>
    show win0_3.index t (2 : Fin 4) * 16 ≤ (i 2).val ∧ (i 2).val < win0_3.index t (2 : Fin 4) * 16 + 16
    omega
  | ⟨3, _⟩ =>
    show win0_3.index t (3 : Fin 4) * 128 ≤ (i 3).val ∧ (i 3).val < win0_3.index t (3 : Fin 4) * 128 + 128
    omega

/-! ## The result array -/

/-- After the run the result array holds the convolution of the two arguments as launched. -/
theorem final_out (c : Dev nD) :
    (dats m 0 c).arrAt 3 cfg0.N
      = conv (F := F) (m ((c : Thread nD τ).loc main_arg0)) (m ((c : Thread nD τ).loc main_arg1)) :=
  (dats m 0 c).arrAt_eq_of_cover 3 (conv (F := F) (V m c main_arg0) (V m c main_arg1)) (fun t _ => flushed_eq m c t) out_cover

end Cert.KernelIdeal.Hand

end
-- ==== Proof.KI.Value.lean ====
/-
  The idealized kernel's run with its result named: every weakly fair execution ends with the result array at the
  causal convolution of the two argument arrays, and the arguments unchanged.
-/
import proofs.«164929_j54657753809306_2_alg».proof.Proof.KI.Final

noncomputable section

namespace Cert.KernelIdeal.Hand

open Cert.KernelIdeal Cert.KernelIdeal.Gen Cert.Conv4
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v0)
        = conv (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c 3).trans (final_out m c), kept_arg0 m r h c, kept_arg1 m r h c⟩) (run_main m ρ)

end Cert.KernelIdeal.Hand

end
-- ==== Proof.RefConv.lean ====
/-
  The reference program computes the convolution of the specification.

  The program forms, for k = 1, 2, 3, the input padded with k zeros in front along the position axis and cut back to
  its first 4096 positions, multiplies the input and each shifted copy by one row of the filter (a slice of the
  filter, reshaped and broadcast over batch and position), and adds the four products left to right. Read at one
  index (b, s, h, d):

    * the filter row k, broadcast, is w[k, h, d];
    * the input padded by k and cut back is x[b, s - k, h, d] when k ≤ s, and the padding value otherwise; the padding
      value is the integer zero converted to a float, which at the extended reals is the zero of the specification;
    * products and sums are read elementwise, so the result is the specification's four taps combined in its order.

  No arithmetic law is used: both sides apply the same products and sums in the same grouping.
-/
import proofs.«164929_j54657753809306_2_alg».proof.Proof.Gen.ReferenceIdeal.Run
import proofs.«164929_j54657753809306_2_alg».proof.Proof.Gen.ReferenceIdeal.Read
import proofs.«164929_j54657753809306_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Conv4

/-! ## A shift along the position axis, read at an index -/

/-- The input padded with `k` copies of a value in front along the position axis, cut back to the first 4096
    positions: at position `s` it is the input at `s - k` when `k ≤ s`, and the padding value before that. -/
theorem shift_apply {α : Type} {n : Nat} (k : Nat) (x : SX.Idx → α) {u : Shape} (v : u.Idx → α)
    (hp : SX.Pads (![0, k, 0, 0] : Fin 4 → Nat) ![0, 0, 0, 0] ![0, 0, 0, 0] ⟨4, ![4, n, 16, 128]⟩) (hu : 0 < u.numel)
    (hsl : (⟨4, ![4, n, 16, 128]⟩ : Shape).Slices ![0, 0, 0, 0] SX) (i : SX.Idx) :
    extractStridedSlice SX ![0, 0, 0, 0] (pad ⟨4, ![4, n, 16, 128]⟩ ![0, k, 0, 0] ![0, 0, 0, 0] ![0, 0, 0, 0] x v hp hu) hsl i
      = if hk : k ≤ (i 1).val then x (ix4 (i 0) ⟨(i 1).val - k, by have h1 : (i 1).val < 4096 := (i 1).isLt; omega⟩ (i 2) (i 3))
        else v (Shape.Idx.first hu) := by
  have h1 : (i 1).val < 4096 := (i 1).isLt
  have hn : (i 1).val < n := by
    have e : (0 : Nat) + 4096 ≤ n := hsl.2 (1 : Fin 4)
    omega
  refine (extractStridedSlice_apply _ _ hsl i (ix4 (i 0) (⟨(i 1).val, hn⟩ : Fin n) (i 2) (i 3)) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)).trans ?_
  by_cases hk : k ≤ (i 1).val
  · rw [dif_pos hk]
    exact pad_apply_of_inside _ _ _ x v hp hu _ (ix4 (i 0) ⟨(i 1).val - k, by omega⟩ (i 2) (i 3)) (fun a => match a with
      | ⟨0, _⟩ => by show (i 0).val = 0 + (i 0).val * (0 + 1); omega
      | ⟨1, _⟩ => by show (i 1).val = k + ((i 1).val - k) * (0 + 1); omega
      | ⟨2, _⟩ => by show (i 2).val = 0 + (i 2).val * (0 + 1); omega
      | ⟨3, _⟩ => by show (i 3).val = 0 + (i 3).val * (0 + 1); omega)
  · rw [dif_neg hk]
    exact pad_apply_of_not_inside _ _ _ x v hp hu _ (1 : Fin 4) (fun hin => hk hin.1)

/-- The padding value of the program, the integer zero converted, is the zero of the specification. -/
theorem pad_value (j : S_.Idx) : (sitofp .f32 (constantI S_ 32 0#32) : FVec Ideal S_ .f32) j = (zero : Ideal .f32) := by
  show (Scalar.sitofp .f32 0#32 : Ideal .f32) = Ideal.ofBits .f32 0x00000000#32
  rw [sitofp_zero, Ideal.ofBits_zero_f32]

/-! ## The four inputs of a result element -/

theorem tap0 (x : SX.Idx → Ideal .f32) (i : SX.Idx) : x i = tap x (i 0) (i 1) (i 2) (i 3) 0 := by
  unfold tap
  rw [dif_pos (Nat.zero_le _)]
  exact congrArg x (eq_ix4 i)

theorem tap1 (x : SX.Idx → Ideal .f32) (i : SX.Idx) : val_main_v6 (F := Ideal) x i = tap x (i 0) (i 1) (i 2) (i 3) 1 := by
  unfold val_main_v6 val_main_v5 tap
  refine (shift_apply 1 x _ _ _ _ i).trans ?_
  by_cases hk : 1 ≤ (i 1).val
  · rw [dif_pos hk, dif_pos hk]
  · rw [dif_neg hk, dif_neg hk]; exact pad_value _

theorem tap2 (x : SX.Idx → Ideal .f32) (i : SX.Idx) : val_main_v14 (F := Ideal) x i = tap x (i 0) (i 1) (i 2) (i 3) 2 := by
  unfold val_main_v14 val_main_v13 tap
  refine (shift_apply 2 x _ _ _ _ i).trans ?_
  by_cases hk : 2 ≤ (i 1).val
  · rw [dif_pos hk, dif_pos hk]
  · rw [dif_neg hk, dif_neg hk]; exact pad_value _

theorem tap3 (x : SX.Idx → Ideal .f32) (i : SX.Idx) : val_main_v22 (F := Ideal) x i = tap x (i 0) (i 1) (i 2) (i 3) 3 := by
  unfold val_main_v22 val_main_v21 tap
  refine (shift_apply 3 x _ _ _ _ i).trans ?_
  by_cases hk : 3 ≤ (i 1).val
  · rw [dif_pos hk, dif_pos hk]
  · rw [dif_neg hk, dif_neg hk]; exact pad_value _

/-! ## The four filter entries of a result element -/

theorem weight0 (w : SW.Idx → Ideal .f32) (i : SX.Idx) : val_main_v3 (F := Ideal) w i = w (ix3 0 (i 2) (i 3)) := by
  rw [val_main_v3_apply, val_main_v2_apply, val_main_v1_apply, val_main_v0_apply]
  have h2 : (i 2).val < 16 := (i 2).isLt
  have h3 : (i 3).val < 128 := (i 3).isLt
  refine congrArg w (funext fun a => match a with
    | ⟨0, _⟩ => Fin.ext (by show (0 : Nat) = 0; rfl)
    | ⟨1, _⟩ => Fin.ext (by show ((i 2).val * 128 + (i 3).val) / 128 % 16 = (i 2).val; omega)
    | ⟨2, _⟩ => Fin.ext (by show ((i 2).val * 128 + (i 3).val) % 128 = (i 3).val; omega))

theorem weight1 (w : SW.Idx → Ideal .f32) (i : SX.Idx) : val_main_v10 (F := Ideal) w i = w (ix3 1 (i 2) (i 3)) := by
  rw [val_main_v10_apply, val_main_v9_apply, val_main_v8_apply, val_main_v7_apply]
  have h2 : (i 2).val < 16 := (i 2).isLt
  have h3 : (i 3).val < 128 := (i 3).isLt
  refine congrArg w (funext fun a => match a with
    | ⟨0, _⟩ => Fin.ext (by show (1 : Nat) + 0 = 1; rfl)
    | ⟨1, _⟩ => Fin.ext (by show ((i 2).val * 128 + (i 3).val) / 128 % 16 = (i 2).val; omega)
    | ⟨2, _⟩ => Fin.ext (by show ((i 2).val * 128 + (i 3).val) % 128 = (i 3).val; omega))

theorem weight2 (w : SW.Idx → Ideal .f32) (i : SX.Idx) : val_main_v18 (F := Ideal) w i = w (ix3 2 (i 2) (i 3)) := by
  rw [val_main_v18_apply, val_main_v17_apply, val_main_v16_apply, val_main_v15_apply]
  have h2 : (i 2).val < 16 := (i 2).isLt
  have h3 : (i 3).val < 128 := (i 3).isLt
  refine congrArg w (funext fun a => match a with
    | ⟨0, _⟩ => Fin.ext (by show (2 : Nat) + 0 = 2; rfl)
    | ⟨1, _⟩ => Fin.ext (by show ((i 2).val * 128 + (i 3).val) / 128 % 16 = (i 2).val; omega)
    | ⟨2, _⟩ => Fin.ext (by show ((i 2).val * 128 + (i 3).val) % 128 = (i 3).val; omega))

theorem weight3 (w : SW.Idx → Ideal .f32) (i : SX.Idx) : val_main_v26 (F := Ideal) w i = w (ix3 3 (i 2) (i 3)) := by
  rw [val_main_v26_apply, val_main_v25_apply, val_main_v24_apply, val_main_v23_apply]
  have h2 : (i 2).val < 16 := (i 2).isLt
  have h3 : (i 3).val < 128 := (i 3).isLt
  refine congrArg w (funext fun a => match a with
    | ⟨0, _⟩ => Fin.ext (by show (3 : Nat) + 0 = 3; rfl)
    | ⟨1, _⟩ => Fin.ext (by show ((i 2).val * 128 + (i 3).val) / 128 % 16 = (i 2).val; omega)
    | ⟨2, _⟩ => Fin.ext (by show ((i 2).val * 128 + (i 3).val) % 128 = (i 3).val; omega))

/-! ## The result -/

/-- The value the reference program writes is the convolution of its two arguments. -/
theorem ref_eq_conv (x : SX.Idx → Ideal .f32) (w : SW.Idx → Ideal .f32) :
    val_main_v28 (F := Ideal) x w = conv (F := Ideal) x w := by
  funext i
  rw [val_main_v28_apply, val_main_v20_apply, val_main_v12_apply, val_main_v4_apply, val_main_v11_apply,
    val_main_v19_apply, val_main_v27_apply, weight0, weight1, weight2, weight3, tap1, tap2, tap3, tap0 x i]
  rfl

/-- Every weakly fair execution of the reference program ends with its result buffer holding the convolution of the
    two argument buffers' launch contents, and the arguments unchanged. -/
theorem run_conv (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.Conv4.conv (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v28_eq _ _).trans (ref_eq_conv _ _)), (h c).2⟩)
    (Cert.ReferenceIdeal.Value.run (F := Ideal) m ρ)

end Cert.ReferenceIdeal.RefValue

end
-- ==== Proof.lean ====
/-
  The kernel is a causal depthwise convolution of length 4 along the sequence axis: for x of shape
  [4, 4096, 16, 128] and filter taps w of shape [4, 16, 128],

      out[b,s,h,d] = ((x[b,s,h,d]·w[0,h,d] + x[b,s-1,h,d]·w[1,h,d]) + x[b,s-2,h,d]·w[2,h,d]) + x[b,s-3,h,d]·w[3,h,d],

  with x[b,s-k,h,d] read as zero when s < k. The kernel computes it block by block (1024 positions per grid point,
  the three rows before a block taken from the eight positions fetched ahead of it, or zeros at the start of the
  sequence); the reference pads x with k zeros in front, keeps the first 4096 positions and multiplies by tap k.
  Both sides take the same products and add them in the same order, so at the ideal instance the two results are
  one function of the arguments (`Cert.Conv4.conv`, Proof/Spec.lean) and no algebraic law is needed: the claim
  holds for every extended real input, and the finiteness precondition is not used.

  Proof/K and Proof/KI hold the kernel's run at the word-level and the ideal instance (one text, generic in the float
  instance): the payloads read at an index (Taps), each store's payload as the block's convolution (Pieces), the body
  at a grid point with its counted loop (Body), the pipeline's proof data and launch (Run); Proof/KI/Final reads the
  result array off the blocks written back and Proof/RefConv reads the reference's run.
-/
import proofs.«164929_j54657753809306_2_alg».proof.Defs
import proofs.«164929_j54657753809306_2_alg».proof.Proof.Gen.Kernel
import proofs.«164929_j54657753809306_2_alg».proof.Proof.Gen.KernelIdeal
import proofs.«164929_j54657753809306_2_alg».proof.Proof.Gen.ReferenceIdeal
import proofs.«164929_j54657753809306_2_alg».proof.Proof.Gen.Pre_finite_inputs
import proofs.«164929_j54657753809306_2_alg».proof.Proof.K.Run
import proofs.«164929_j54657753809306_2_alg».proof.Proof.KI.Value
import proofs.«164929_j54657753809306_2_alg».proof.Proof.RefConv

noncomputable section

namespace Cert.Proof

open Idealize.ShloMosaic Idealize.SL.Sem

/-- The word-level kernel runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_conv m ρ)

/-- Both idealized programs end with the convolution of their (agreeing) arguments. -/
theorem algebraic : Cert.algebraic_KernelIdeal_ReferenceIdeal := by
  intro m ρ m' ρ' _ hagree
  refine ⟨fun c => Cert.Conv4.conv (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value (F := Ideal) m ρ, ?_⟩
  refine (θ_run Cert.ReferenceIdeal.defs _ _).mono (fun _ h c => ⟨(h c).1.trans ?_, (h c).2⟩)
    (Cert.ReferenceIdeal.RefValue.run_conv m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
